-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x3 : Shape := ⟨3, ![4, 8192, 3]⟩
abbrev S_ : Shape := ⟨0, ![]⟩

class Facts : Prop where
  bcast_S_S4x8192x3 : S_.BroadcastsInDim S4x8192x3 (![] : Fin 0 → Fin S4x8192x3.rank)
  reducesTo_S4x8192x3_S_d0_1_2 : S4x8192x3.ReducesTo [0, 1, 2] S_
  h_S_ : 0 < S_.numel

variable [Facts]

def fn {F : FTy → Type} [FloatOps F] (main_arg0 : FVec F S4x8192x3 .f32) (main_arg1 : FVec F S4x8192x3 .f32) : IVec S_ 1 :=
  let main_v0 : FVec F S4x8192x3 .f32 := Host.absf main_arg0
  let main_cst : FVec F S_ .f32 := constant S_ .f32 0x7F800000#32
  let main_v1 : FVec F S4x8192x3 .f32 := broadcastInDim S4x8192x3 ![] bcast_S_S4x8192x3 main_cst
  let main_v2 : IVec S4x8192x3 1 := cmpf .olt main_v0 main_v1
  let main_c : IVec S_ 1 := constantI S_ 1 1#1
  let main_v3 : IVec S_ 1 := (fun x v => Host.reduce IntOp.andi x v reducesTo_S4x8192x3_S_d0_1_2 h_S_) main_v2 main_c
  let main_v4 : FVec F S4x8192x3 .f32 := Host.absf main_arg1
  let main_cst_0 : FVec F S_ .f32 := constant S_ .f32 0x7F800000#32
  let main_v5 : FVec F S4x8192x3 .f32 := broadcastInDim S4x8192x3 ![] bcast_S_S4x8192x3 main_cst_0
  let main_v6 : IVec S4x8192x3 1 := cmpf .olt main_v4 main_v5
  let main_c_1 : IVec S_ 1 := constantI S_ 1 1#1
  let main_v7 : IVec S_ 1 := (fun x v => Host.reduce IntOp.andi x v reducesTo_S4x8192x3_S_d0_1_2 h_S_) main_v6 main_c_1
  let main_v8 : IVec S_ 1 := andi main_v3 main_v7
  main_v8
-- ==== Kernel.lean ====
abbrev S4x8192x3 : Shape := ⟨3, ![4, 8192, 3]⟩
abbrev S4x1x8192 : Shape := ⟨3, ![4, 1, 8192]⟩
abbrev S1x512x3 : Shape := ⟨3, ![1, 512, 3]⟩
abbrev S1x1x512 : Shape := ⟨3, ![1, 1, 512]⟩
abbrev S1x1x8192 : Shape := ⟨3, ![1, 1, 8192]⟩
abbrev S1x512 : Shape := ⟨2, ![1, 512]⟩
abbrev S1x8192 : Shape := ⟨2, ![1, 8192]⟩
abbrev S512x3 : Shape := ⟨2, ![512, 3]⟩
abbrev S512 : Shape := ⟨1, ![512]⟩
abbrev S512x512 : Shape := ⟨2, ![512, 512]⟩
abbrev S512x1 : Shape := ⟨2, ![512, 1]⟩
abbrev S4x8192 : Shape := ⟨2, ![4, 8192]⟩
abbrev S_ : Shape := ⟨0, ![]⟩
abbrev S4 : Shape := ⟨1, ![4]⟩

abbrev nBuf : Space → Nat
  | .hbm => 17
  | .vmem => 8
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x1x8192, .f32⟩
  | .hbm, ⟨3, _⟩ => ⟨S4x1x8192, .f32⟩
  | .hbm, ⟨4, _⟩ => ⟨S4x8192, .f32⟩
  | .hbm, ⟨5, _⟩ => ⟨S4x8192, .f32⟩
  | .hbm, ⟨6, _⟩ => ⟨S_, .f32⟩
  | .hbm, ⟨7, _⟩ => ⟨S4, .f32⟩
  | .hbm, ⟨8, _⟩ => ⟨S_, .f32⟩
  | .hbm, ⟨9, _⟩ => ⟨S4, .f32⟩
  | .hbm, ⟨10, _⟩ => ⟨S4, .f32⟩
  | .hbm, ⟨11, _⟩ => ⟨S_, .f32⟩
  | .hbm, ⟨12, _⟩ => ⟨S4, .f32⟩
  | .hbm, ⟨13, _⟩ => ⟨S_, .f32⟩
  | .hbm, ⟨14, _⟩ => ⟨S4, .f32⟩
  | .hbm, ⟨15, _⟩ => ⟨S4, .f32⟩
  | .hbm, ⟨16, _⟩ => ⟨S4, .f32⟩
  | .local _ .vmem, ⟨0, _⟩ => ⟨S1x512x3, .f32⟩
  | .local _ .vmem, ⟨1, _⟩ => ⟨S1x512x3, .f32⟩
  | .local _ .vmem, ⟨2, _⟩ => ⟨S1x512x3, .f32⟩
  | .local _ .vmem, ⟨3, _⟩ => ⟨S1x512x3, .f32⟩
  | .local _ .vmem, ⟨4, _⟩ => ⟨S1x1x512, .f32⟩
  | .local _ .vmem, ⟨5, _⟩ => ⟨S1x1x512, .f32⟩
  | .local _ .vmem, ⟨6, _⟩ => ⟨S1x1x8192, .f32⟩
  | .local _ .vmem, ⟨7, _⟩ => ⟨S1x1x8192, .f32⟩
  | _, _ => ⟨S4x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 16, 16], ![false, false, false]⟩

def k0_mult1 (i : grid0.Coords) : BitVec 32 :=
  let arg2 : BitVec 32 := BitVec.ofNat 32 (i 2).val
  let c512_i32 : BitVec 32 := 512#32
  let v36 : BitVec 32 := Scalar.muli arg2 c512_i32
  v36
def k0_off1 (i : grid0.Coords) : Fin 3 → Nat :=
  let c0_21 : Index := 0#32
  let c0_22 : Index := 0#32
  let arg2 : BitVec 32 := BitVec.ofNat 32 (i 2).val
  let c512_i32 : BitVec 32 := 512#32
  let v36 : BitVec 32 := Scalar.muli arg2 c512_i32
  let v37 : BitVec 32 := v36
  let v38 : Index := Scalar.indexCast v37
  ![0, 0, v38.toNat]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

class Facts₀ : Prop where
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  shapeCasts_S1x512_S1x1x512 : S1x512.ShapeCasts S1x1x512
  inb_S1x1x8192_S1x1x8192_0_0_0 : ∀ a, (![0, 0, 0] : Fin 3 → Nat) a + S1x1x8192.size a ≤ S1x1x8192.size a
  h_S1x1x8192 : 0 < S1x1x8192.numel
  shapeCasts_S1x1x8192_S1x8192 : S1x1x8192.ShapeCasts S1x8192
  shapeCasts_S1x8192_S1x1x8192 : S1x8192.ShapeCasts S1x1x8192
  inb_S1x512x3_S1x512x3_0_0_0 : ∀ a, (![0, 0, 0] : Fin 3 → Nat) a + S1x512x3.size a ≤ S1x512x3.size a
  h_S1x512x3 : 0 < S1x512x3.numel
  shapeCasts_S1x512x3_S512x3 : S1x512x3.ShapeCasts S512x3
  reduces_S512x3_S512 : S512x3.Reduces [1] S512
  shapeCasts_S512_S512x1 : S512.ShapeCasts S512x1
  shapeCasts_S512_S1x512 : S512.ShapeCasts S1x512
  broadcasts_S512x1_S512x512 : S512x1.Broadcasts S512x512
  broadcasts_S1x512_S512x512 : S1x512.Broadcasts S512x512
  reduces_S512x512_S512 : S512x512.Reduces [1] S512
  reduces_S512x512_S512_2 : S512x512.Reduces [0] S512
  shapeCasts_S4x1x8192_S4x8192 : S4x1x8192.ShapeCasts S4x8192
  reducesTo_S4x8192_S4_d1 : S4x8192.ReducesTo [1] S4
  h_S_ : 0 < S_.numel
  bcast_S_S4 : S_.BroadcastsInDim S4 (![] : Fin 0 → Fin S4.rank)
  dot_S512x3_S512x3_S512x512_1_1_0_0_n_n_wf : DotDims.WF S512x3 S512x3 S512x512 [1] [1] [0] [0] [] []
  hrank0 : 0 < grid0.rank
  k0_mult1_dvd : ∀ i : grid0.Coords, 512 ∣ (k0_mult1 i).toNat
  k0_off1_inb : ∀ i : grid0.Coords, ∀ a, (k0_off1 i) a + S1x1x512.size a ≤ S1x1x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x3.size a ≤ S4x8192x3.size a
  hwx0_0 : ∀ i : grid0.Coords, EltTy.bits .f32 = 32 ∨ (Rect.block (s := S4x8192x3) S1x512x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x3.size a ≤ S4x8192x3.size a
  hwx0_1 : ∀ i : grid0.Coords, EltTy.bits .f32 = 32 ∨ (Rect.block (s := S4x8192x3) S1x512x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512.size a ≤ S4x1x8192.size a
  hwx0_2 : ∀ i : grid0.Coords, EltTy.bits .f32 = 32 ∨ (Rect.block (s := S4x1x8192) S1x1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x8192.size a ≤ S4x1x8192.size a
  hwx0_3 : ∀ i : grid0.Coords, EltTy.bits .f32 = 32 ∨ (Rect.block (s := S4x1x8192) S1x1x8192.size (cc0_transform_3 i) (hinb0_3 i)).WholeWords (EltTy.packing .f32)

variable [Facts₀]

def dot_S512x3_S512x3_S512x512_1_1_0_0_n_n : DotDims S512x3 S512x3 S512x512 where
  lhsContracting := [1]
  rhsContracting := [1]
  lhsNonContracting := [0]
  rhsNonContracting := [0]
  lhsBatch := []
  rhsBatch := []
  wf := dot_S512x3_S512x3_S512x512_1_1_0_0_n_n_wf

abbrev win0_0 : Pipeline.Window sig grid0 :=
  Pipeline.Window.ofSpec (Memref.whole main_arg0) S1x512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x8192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x8192x3 : Shape := ⟨3, ![4, 8192, 3]⟩
abbrev S_ : Shape := ⟨0, ![]⟩
abbrev S4x8192 : Shape := ⟨2, ![4, 8192]⟩
abbrev S4x8192x1 : Shape := ⟨3, ![4, 8192, 1]⟩
abbrev S4x1x8192 : Shape := ⟨3, ![4, 1, 8192]⟩
abbrev S4x8192x8192 : Shape := ⟨3, ![4, 8192, 8192]⟩
abbrev S4 : Shape := ⟨1, ![4]⟩

abbrev nBuf : Space → Nat
  | .hbm => 36
  | .vmem => 0
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192x3, .f32⟩
  | .hbm, ⟨3, _⟩ => ⟨S_, .f32⟩
  | .hbm, ⟨4, _⟩ => ⟨S4x8192, .f32⟩
  | .hbm, ⟨5, _⟩ => ⟨S4x8192x3, .f32⟩
  | .hbm, ⟨6, _⟩ => ⟨S_, .f32⟩
  | .hbm, ⟨7, _⟩ => ⟨S4x8192, .f32⟩
  | .hbm, ⟨8, _⟩ => ⟨S4x8192x1, .f32⟩
  | .hbm, ⟨9, _⟩ => ⟨S4x1x8192, .f32⟩
  | .hbm, ⟨10, _⟩ => ⟨S4x8192x8192, .f32⟩
  | .hbm, ⟨11, _⟩ => ⟨S4x8192x8192, .f32⟩
  | .hbm, ⟨12, _⟩ => ⟨S4x8192x8192, .f32⟩
  | .hbm, ⟨13, _⟩ => ⟨S4x8192x8192, .f32⟩
  | .hbm, ⟨14, _⟩ => ⟨S_, .f32⟩
  | .hbm, ⟨15, _⟩ => ⟨S4x8192x8192, .f32⟩
  | .hbm, ⟨16, _⟩ => ⟨S4x8192x8192, .f32⟩
  | .hbm, ⟨17, _⟩ => ⟨S4x8192x8192, .f32⟩
  | .hbm, ⟨18, _⟩ => ⟨S_, .f32⟩
  | .hbm, ⟨19, _⟩ => ⟨S4x8192x8192, .f32⟩
  | .hbm, ⟨20, _⟩ => ⟨S4x8192x8192, .f32⟩
  | .hbm, ⟨21, _⟩ => ⟨S_, .f32⟩
  | .hbm, ⟨22, _⟩ => ⟨S4x8192, .f32⟩
  | .hbm, ⟨23, _⟩ => ⟨S_, .f32⟩
  | .hbm, ⟨24, _⟩ => ⟨S4, .f32⟩
  | .hbm, ⟨25, _⟩ => ⟨S_, .f32⟩
  | .hbm, ⟨26, _⟩ => ⟨S4, .f32⟩
  | .hbm, ⟨27, _⟩ => ⟨S4, .f32⟩
  | .hbm, ⟨28, _⟩ => ⟨S_, .f32⟩
  | .hbm, ⟨29, _⟩ => ⟨S4x8192, .f32⟩
  | .hbm, ⟨30, _⟩ => ⟨S_, .f32⟩
  | .hbm, ⟨31, _⟩ => ⟨S4, .f32⟩
  | .hbm, ⟨32, _⟩ => ⟨S_, .f32⟩
  | .hbm, ⟨33, _⟩ => ⟨S4, .f32⟩
  | .hbm, ⟨34, _⟩ => ⟨S4, .f32⟩
  | .hbm, ⟨35, _⟩ => ⟨S4, .f32⟩
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_cst_5 : Ref sig .tc := ⟨.hbm, 25, rfl⟩
abbrev main_v17 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩
abbrev main_cst_7 : Ref sig .tc := ⟨.hbm, 30, rfl⟩
abbrev main_v20 : Ref sig .tc := ⟨.hbm, 31, rfl⟩
abbrev main_cst_8 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩

abbrev nD : Nat := 1
abbrev τ : Topo := Topo.v7x

variable {F : FTy → Type} [FloatOps F]

class Facts₀ : Prop where
  reducesTo_S4x8192x3_S4x8192_d2 : S4x8192x3.ReducesTo [2] S4x8192
  h_S_ : 0 < S_.numel
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  bcast_S4x8192x1_S4x8192x8192_0_1_2 : S4x8192x1.BroadcastsInDim S4x8192x8192 (![0, 1, 2] : Fin 3 → Fin S4x8192x8192.rank)
  bcast_S4x1x8192_S4x8192x8192_0_1_2 : S4x1x8192.BroadcastsInDim S4x8192x8192 (![0, 1, 2] : Fin 3 → Fin S4x8192x8192.rank)
  bcast_S_S4x8192x8192 : S_.BroadcastsInDim S4x8192x8192 (![] : Fin 0 → Fin S4x8192x8192.rank)
  reducesTo_S4x8192x8192_S4x8192_d2 : S4x8192x8192.ReducesTo [2] S4x8192
  reducesTo_S4x8192_S4_d1 : S4x8192.ReducesTo [1] S4
  bcast_S_S4 : S_.BroadcastsInDim S4 (![] : Fin 0 → Fin S4.rank)
  reducesTo_S4x8192x8192_S4x8192_d1 : S4x8192x8192.ReducesTo [1] S4x8192
  dot_S4x8192x3_S4x8192x3_S4x8192x8192_2_2_1_1_0_0_wf : DotDims.WF S4x8192x3 S4x8192x3 S4x8192x8192 [2] [2] [1] [1] [0] [0]

variable [Facts₀]

def dot_S4x8192x3_S4x8192x3_S4x8192x8192_2_2_1_1_0_0 : DotDims S4x8192x3 S4x8192x3 S4x8192x8192 where
  lhsContracting := [2]
  rhsContracting := [2]
  lhsNonContracting := [1]
  rhsNonContracting := [1]
  lhsBatch := [0]
  rhsBatch := [0]
  wf := dot_S4x8192x3_S4x8192x3_S4x8192x8192_2_2_1_1_0_0_wf

class Facts : Prop extends Facts₀ where

variable [Facts]
-- ==== Proof.BodyKernel.Cond.lean ====
/-
  The kernel's grid is 4 batches by 16 row tiles by 16 column tiles, visited in that order, so point t has column tile
  t mod 16, row tile (t / 16) mod 16 and batch t / 256.  The body has two conditionals on the coordinates: the first
  holds when the column tile is 0 (a new sweep along a row of tiles begins: the running row minima are reset to +inf),
  the second when both the row tile and the column tile are 0 (a new batch begins: the running column minima are reset).
  Here both conditions are put in closed form over the point's number, and the staging buffers the body is called with
  at a point are named.
-/
import proofs.«144749_j88364657148397_2_alg».proof.Proof.Gen.Kernel.Frame
import proofs.«144749_j88364657148397_2_alg».proof.Proof.Gen.Kernel.Skeleton
import proofs.«144749_j88364657148397_2_alg».proof.Proof.Gen.Kernel.Points

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first conditional's condition: the column-tile coordinate is zero. -/
abbrev condRow (i : grid0.Coords) : Prop := (Scalar.cmpi .ne (Scalar.extui (Scalar.cmpi .eq (BitVec.ofNat 32 (i 2).val) 0#32)) 0#32) = 1#1
/-- It holds exactly at the points whose number is a multiple of 16. -/
theorem condRow_iff : ∀ t : Fin cfg0.N, condRow (grid0.coords t) ↔ t.val % 16 = 0 :=
  (by decide +kernel : ∀ t : Fin grid0.N, condRow (grid0.coords t) ↔ t.val % 16 = 0)

/-- The second conditional's condition: the row-tile and the column-tile coordinates are both zero. -/
abbrev condBatch (i : grid0.Coords) : Prop := (Scalar.cmpi .ne (Scalar.extui (Scalar.andi (Scalar.cmpi .eq (BitVec.ofNat 32 (i 1).val) 0#32) (Scalar.cmpi .eq (BitVec.ofNat 32 (i 2).val) 0#32))) 0#32) = 1#1
/-- It holds exactly at the points whose number is a multiple of 256. -/
theorem condBatch_iff : ∀ t : Fin cfg0.N, condBatch (grid0.coords t) ↔ t.val % 256 = 0 :=
  (by decide +kernel : ∀ t : Fin grid0.N, condBatch (grid0.coords t) ↔ t.val % 256 = 0)

/-- Each window's current staging buffer at point `t`, and that it is a whole buffer. -/
abbrev ms0 (t : Fin cfg0.N) : Memref sig .tc .vmem S1x512x3 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x512x3 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x8192 .f32 := win0_3.stage (cfg0.slots t 3)
abbrev hs3 (t : Fin cfg0.N) : (ms3 t).IsWhole := hstage0_3 ((cfg0.slots t 3).cast nbuf0_3)

end Cert.Kernel.Body

end
-- ==== Proof.BodyKernel.RunInner.lean ====
/-
  The body at a point inside a sweep (the column tile is not 0): neither conditional is taken.  The body loads the two
  input blocks and the running row minima, stores the updated row minima over the whole row block, loads the 512 running
  column minima of its column tile and stores their update over that slice of the column block.
-/
import proofs.«144749_j88364657148397_2_alg».proof.Proof.BodyKernel.Cond

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The stores the body makes into the two output buffers in this case, newest first, over the contents the buffers are
    handed with (`xo2` the row-minima block, `xo3` the column-minima block), together with the run itself: from the
    four staging buffers at their contents the body runs without fault to the end, the inputs' buffers unchanged and each
    output's buffer at its incoming contents overwritten by those stores. -/
noncomputable def runInner (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x1x512 .f32) (harg5 : arg5.IsWhole) (arg6 : Memref sig .tc .vmem S1x1x8192 .f32) (harg6 : arg6.IsWhole) (hc0 : ¬condRow i) (hc1 : ¬condBatch i)
    (x0 x1 : Vec F S1x512x3 .f32) (xo2 : Vec F S1x1x512 .f32) (xo3 : Vec F S1x1x8192 .f32) :
    Σ' (L2 : List (View.Piece (Elt F) S1x1x512 .f32)) (L3 : List (View.Piece (Elt F) S1x1x8192 .f32)),
      ∀ (E : Set ℕ) (K : PUnit → sProp 𝕄),
        iprop(owns (c : Thread nD τ) arg3 fullShare x0 ∗ owns (c : Thread nD τ) arg4 fullShare x1
            ∗ owns (c : Thread nD τ) arg5 fullShare xo2 ∗ owns (c : Thread nD τ) arg6 fullShare xo3
            ∗ (iprop(owns (c : Thread nD τ) arg3 fullShare x0 ∗ owns (c : Thread nD τ) arg4 fullShare x1
                ∗ (arg5.view.loc (c : Thread nD τ) ↦[arg5.view.set]{fullShare} arg5.view.writes (Elt F) (harg5.unread xo2) L2)
                ∗ (arg6.view.loc (c : Thread nD τ) ↦[arg6.view.set]{fullShare} arg6.view.writes (Elt F) (harg6.unread xo3) L3)) -∗ K ⟨⟩))
          ⊢ wp frame (wpE (defs₀ (F := F)) Variants.none c none) E (cc0__fused_kernel i arg3 harg3 arg4 harg4 arg5 harg5 arg6 harg6) K := by
  refine ⟨?_, ?_, fun E K => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%f3, %hf3, H3⟩, Hk⟩
    obtain rfl := harg3.eq_unread hf0; obtain rfl := harg4.eq_unread hf1
    obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexact H2
    iexact H3

end Cert.Kernel.Body

end
-- ==== Proof.BodyKernel.RunRowStart.lean ====
/-
  The body at the first point of a sweep that does not begin a batch (the column tile is 0, the row tile is not): only the
  first conditional is taken.  The row block is first stored whole with +inf, then updated as at an inner point; the column
  block is updated on its first slice as at an inner point.
-/
import proofs.«144749_j88364657148397_2_alg».proof.Proof.BodyKernel.RunInner

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The stores the body makes into the two output buffers in this case, newest first, over the contents the buffers are
    handed with (`xo2` the row-minima block, `xo3` the column-minima block), together with the run itself: from the
    four staging buffers at their contents the body runs without fault to the end, the inputs' buffers unchanged and each
    output's buffer at its incoming contents overwritten by those stores. -/
noncomputable def runRowStart (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x1x512 .f32) (harg5 : arg5.IsWhole) (arg6 : Memref sig .tc .vmem S1x1x8192 .f32) (harg6 : arg6.IsWhole) (hc0 : condRow i) (hc1 : ¬condBatch i)
    (x0 x1 : Vec F S1x512x3 .f32) (xo2 : Vec F S1x1x512 .f32) (xo3 : Vec F S1x1x8192 .f32) :
    Σ' (L2 : List (View.Piece (Elt F) S1x1x512 .f32)) (L3 : List (View.Piece (Elt F) S1x1x8192 .f32)),
      ∀ (E : Set ℕ) (K : PUnit → sProp 𝕄),
        iprop(owns (c : Thread nD τ) arg3 fullShare x0 ∗ owns (c : Thread nD τ) arg4 fullShare x1
            ∗ owns (c : Thread nD τ) arg5 fullShare xo2 ∗ owns (c : Thread nD τ) arg6 fullShare xo3
            ∗ (iprop(owns (c : Thread nD τ) arg3 fullShare x0 ∗ owns (c : Thread nD τ) arg4 fullShare x1
                ∗ (arg5.view.loc (c : Thread nD τ) ↦[arg5.view.set]{fullShare} arg5.view.writes (Elt F) (harg5.unread xo2) L2)
                ∗ (arg6.view.loc (c : Thread nD τ) ↦[arg6.view.set]{fullShare} arg6.view.writes (Elt F) (harg6.unread xo3) L3)) -∗ K ⟨⟩))
          ⊢ wp frame (wpE (defs₀ (F := F)) Variants.none c none) E (cc0__fused_kernel i arg3 harg3 arg4 harg4 arg5 harg5 arg6 harg6) K := by
  refine ⟨?_, ?_, fun E K => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%f3, %hf3, H3⟩, Hk⟩
    obtain rfl := harg3.eq_unread hf0; obtain rfl := harg4.eq_unread hf1
    obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexact H2
    iexact H3

end Cert.Kernel.Body

end
-- ==== Proof.BodyKernel.RunFirst.lean ====
/-
  The body at the first point of a batch (the row tile and the column tile are both 0): both conditionals are taken.  The
  row block and the column block are each first stored whole with +inf — after a load of the buffer whose value is not
  used — and then updated as at an inner point.
-/
import proofs.«144749_j88364657148397_2_alg».proof.Proof.BodyKernel.RunRowStart

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The stores the body makes into the two output buffers in this case, newest first, over the contents the buffers are
    handed with (`xo2` the row-minima block, `xo3` the column-minima block), together with the run itself: from the
    four staging buffers at their contents the body runs without fault to the end, the inputs' buffers unchanged and each
    output's buffer overwritten by those stores (the first of which covers it, so what it held before does not matter). -/
noncomputable def runFirst (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x1x512 .f32) (harg5 : arg5.IsWhole) (arg6 : Memref sig .tc .vmem S1x1x8192 .f32) (harg6 : arg6.IsWhole) (hc0 : condRow i) (hc1 : condBatch i)
    (x0 x1 : Vec F S1x512x3 .f32) (xo2 : Vec F S1x1x512 .f32) (xo3 : Vec F S1x1x8192 .f32) :
    Σ' (L2 : List (View.Piece (Elt F) S1x1x512 .f32)) (L3 : List (View.Piece (Elt F) S1x1x8192 .f32)),
      ∀ (E : Set ℕ) (K : PUnit → sProp 𝕄),
        iprop(owns (c : Thread nD τ) arg3 fullShare x0 ∗ owns (c : Thread nD τ) arg4 fullShare x1
            ∗ owns (c : Thread nD τ) arg5 fullShare xo2 ∗ owns (c : Thread nD τ) arg6 fullShare xo3
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L2)
                ∗ (∃ f, arg6.view.loc (c : Thread nD τ) ↦[arg6.view.set]{fullShare} arg6.view.writes (Elt F) f L3)) -∗ K ⟨⟩))
          ⊢ wp frame (wpE (defs₀ (F := F)) Variants.none c none) E (cc0__fused_kernel i arg3 harg3 arg4 harg4 arg5 harg5 arg6 harg6) K := by
  refine ⟨?_, ?_, fun E K => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%f3, %hf3, H3⟩, Hk⟩
    obtain rfl := harg3.eq_unread hf0; obtain rfl := harg4.eq_unread hf1
    obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; iexact H2
    iexists _; iexact H3

end Cert.Kernel.Body

end
-- ==== Proof.BodyKernel.Steps.lean ====
/-
  What one grid point does to the two running blocks, in closed form and for any float values.
  The row block (512 running row minima) is stored whole: it becomes the pointwise update of what it held — or of the
  +inf splat, at the first point of a sweep — by the tile's minima along its rows.  The column block (8192 running column
  minima) is stored only on the 512 entries of the point's column tile: there it becomes the update of what it held — or
  of the +inf splat, at the first point of a batch — by the tile's minima along its columns, and elsewhere it keeps what
  it held.  Each of the three cases' store lists, read back, is one of these two functions.
-/
import proofs.«144749_j88364657148397_2_alg».proof.Proof.BodyKernel.RunFirst
import Idealize.ShloMosaic.Lib.WritesUnit
import Idealize.ShloMosaic.Lib.WholeRead
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole-shape rectangle's offsets, however the zeros are spelt, are zero. -/
theorem zeros3 : (![0, 0, 0] : Fin 3 → ℕ) = fun _ => 0 := by
  funext a; fin_cases a <;> rfl

/-- A store through the whole-shape rectangle, made last, leaves its payload whatever was stored before. -/
theorem read_whole_store {sg : RefSig} {κ : Kind} {sp : Space} {S : Shape} {e : EltTy} {Val : EltTy → Type}
    (v : View sg κ sp S e) (f : v.ty.Contents Val) {off : Fin S.rank → ℕ} (hz : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  funext fun y => View.read_writes_cons_unit_of_mem v f inb w L y y hz fun a => (Nat.zero_add _).symm

/-- A load of a whole buffer held at the contents that read `X` reads `X`. -/
theorem load_whole {κ : Kind} {sp : Space} {S : Shape} {e : EltTy} {Val : EltTy → Type} {mr : Memref sig κ sp S e}
    (h : mr.IsWhole) (X : S.Idx → Val e) {off : Fin S.rank → ℕ} (hz : off = fun _ => 0)
    (inb : ∀ a, off a + S.size a ≤ S.size a) :
    View.readAt Val mr.view (Rect.unit off S.size inb).toLoadRect (h.unread X) = X := by
  rw [View.readAt_eq_ld, h.read_unread, View.ld_unit_zero hz]

/-- The row block after a point: the update of `prev` by the tile of the two input blocks. -/
def rowStep (x0 x1 : Vec F S1x512x3 .f32) (prev : Vec F S1x1x512 .f32) : Vec F S1x1x512 .f32 :=
  k0_pay1 (k0_pay7 x0 x1 prev)

/-- The 512 entries of the column block that the point at coordinates `i` updates. -/
abbrev colRect (i : grid0.Coords) : Rect S1x1x8192 := Rect.unit (k0_off1 i) S1x1x512.size (k0_off1_inb i)

/-- The column block after a point: on the point's slice the update of `prev`'s slice by the tile, elsewhere `prev`. -/
def colStep (i : grid0.Coords) (x0 x1 : Vec F S1x512x3 .f32) (prev : Vec F S1x1x8192 .f32) : Vec F S1x1x8192 .f32 :=
  fun y => if h : ∀ a, k0_off1 i a ≤ (y a).val ∧ (y a).val < k0_off1 i a + S1x1x512.size a then
      k0_pay2 (k0_pay6 x0 x1) (View.ld prev (colRect i)) (Rect.unitLocal (s := S1x1x8192) (off := k0_off1 i) (size := S1x1x512.size) y h)
    else prev y

section Pieces

variable (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x1x512 .f32) (harg5 : arg5.IsWhole) (arg6 : Memref sig .tc .vmem S1x1x8192 .f32) (harg6 : arg6.IsWhole)
  (x0 x1 : Vec F S1x512x3 .f32) (xo2 : Vec F S1x1x512 .f32) (xo3 : Vec F S1x1x8192 .f32)

/-- Inside a sweep the row block is updated from what it held. -/
theorem row_inner (hc0 : ¬condRow i) (hc1 : ¬condBatch i) :
    arg5.view.read (Elt F) (arg5.view.writes (Elt F) (harg5.unread xo2) (runInner c i arg3 harg3 arg4 harg4 arg5 harg5 arg6 harg6 hc0 hc1 x0 x1 xo2 xo3).1)
      = rowStep x0 x1 xo2 := by
  unfold runInner; dsimp only; sl_unfold_words
  refine (read_whole_store _ _ zeros3 _ _ _).trans ?_
  rw [load_whole harg3 x0 zeros3, load_whole harg4 x1 zeros3, load_whole harg5 xo2 zeros3]
  rfl

/-- Inside a sweep the column block is updated on the point's slice from what it held. -/
theorem col_inner (hc0 : ¬condRow i) (hc1 : ¬condBatch i) :
    arg6.view.read (Elt F) (arg6.view.writes (Elt F) (harg6.unread xo3) (runInner c i arg3 harg3 arg4 harg4 arg5 harg5 arg6 harg6 hc0 hc1 x0 x1 xo2 xo3).2.1)
      = colStep i x0 x1 xo3 := by
  unfold runInner; dsimp only
  funext y
  refine (View.read_writes_cons_unit arg6.view _ (k0_off1_inb i) _ [] y (rfl : k0_off1 i = k0_off1 i)).trans ?_
  unfold runInner.sl.r colStep
  rw [load_whole harg3 x0 zeros3, load_whole harg4 x1 zeros3, View.writes_nil, harg6.read_unread, View.readAt_eq_ld, harg6.read_unread]
/-- At the first point of a sweep the row block is updated from the +inf splat, whatever it held. -/
theorem row_rowStart (hc0 : condRow i) (hc1 : ¬condBatch i) :
    arg5.view.read (Elt F) (arg5.view.writes (Elt F) (harg5.unread xo2) (runRowStart c i arg3 harg3 arg4 harg4 arg5 harg5 arg6 harg6 hc0 hc1 x0 x1 xo2 xo3).1)
      = rowStep x0 x1 k0_pay3 := by
  unfold runRowStart; dsimp only; sl_unfold_words
  refine (read_whole_store _ _ zeros3 _ _ _).trans ?_
  rw [load_whole harg3 x0 zeros3, load_whole harg4 x1 zeros3, View.readCov_unit_zero _ zeros3]
  rfl

/-- At the first point of a sweep that does not begin a batch the column block is updated from what it held. -/
theorem col_rowStart (hc0 : condRow i) (hc1 : ¬condBatch i) :
    arg6.view.read (Elt F) (arg6.view.writes (Elt F) (harg6.unread xo3) (runRowStart c i arg3 harg3 arg4 harg4 arg5 harg5 arg6 harg6 hc0 hc1 x0 x1 xo2 xo3).2.1)
      = colStep i x0 x1 xo3 := by
  unfold runRowStart; dsimp only
  funext y
  refine (View.read_writes_cons_unit arg6.view _ (k0_off1_inb i) _ [] y (rfl : k0_off1 i = k0_off1 i)).trans ?_
  unfold runRowStart.sl.r colStep
  rw [load_whole harg3 x0 zeros3, load_whole harg4 x1 zeros3, View.writes_nil, harg6.read_unread, View.readAt_eq_ld, harg6.read_unread]

/-- At the first point of a batch the row block is updated from the +inf splat, whatever the buffer held. -/
theorem row_first (hc0 : condRow i) (hc1 : condBatch i) (f : arg5.view.ty.Contents (Elt F)) :
    arg5.view.read (Elt F) (arg5.view.writes (Elt F) f (runFirst c i arg3 harg3 arg4 harg4 arg5 harg5 arg6 harg6 hc0 hc1 x0 x1 xo2 xo3).1)
      = rowStep x0 x1 k0_pay3 := by
  unfold runFirst; dsimp only; sl_unfold_words
  refine (read_whole_store _ _ zeros3 _ _ _).trans ?_
  rw [load_whole harg3 x0 zeros3, load_whole harg4 x1 zeros3, View.readCov_unit_zero _ zeros3]
  rfl

/-- At the first point of a batch the column block is updated from the +inf splat, whatever the buffer held. -/
theorem col_first (hc0 : condRow i) (hc1 : condBatch i) (f : arg6.view.ty.Contents (Elt F)) :
    arg6.view.read (Elt F) (arg6.view.writes (Elt F) f (runFirst c i arg3 harg3 arg4 harg4 arg5 harg5 arg6 harg6 hc0 hc1 x0 x1 xo2 xo3).2.1)
      = colStep i x0 x1 k0_pay4 := by
  unfold runFirst; dsimp only
  funext y
  refine (View.read_writes_cons_unit arg6.view _ (k0_off1_inb i) _ _ y (rfl : k0_off1 i = k0_off1 i)).trans ?_
  unfold runFirst.sl.r runFirst.sl.v39 runFirst.sl.H3_1 colStep
  rw [load_whole harg3 x0 zeros3, load_whole harg4 x1 zeros3, read_whole_store _ _ zeros3, View.readAt_eq_ld, read_whole_store _ _ zeros3]
end Pieces

end Cert.Kernel.Body

end
-- ==== Proof.BodyKernel.Frame.lean ====
/-
  The frame of the program: every weakly fair execution of @main terminates without fault and leaves the two argument
  arrays unchanged.  What the two running blocks hold after each grid point is defined by recursion on the point's
  number: the row block restarts from the +inf splat at the first point of a sweep (every 16th point) and the column
  block at the first point of a batch (every 256th), and otherwise each continues from what the point before left — the
  row block is written back only after the last point of its sweep and the column block only after the last point of its
  batch, so between write-backs the staging buffer still holds what the body left.  With these contents as the proof data
  the body obligation holds at every point by the case's run, and the launch theorem for a region followed by host
  operations gives the run and the frame.
-/
import proofs.«144749_j88364657148397_2_alg».proof.Proof.BodyKernel.Steps

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One point's effect on the pair (row block, column block). -/
def step (c : Dev nD) (t : Fin cfg0.N) (prev : Vec F S1x1x512 .f32 × Vec F S1x1x8192 .f32) :
    Vec F S1x1x512 .f32 × Vec F S1x1x8192 .f32 :=
  (rowStep (iblk m c 0 t) (iblk m c 1 t) (if t.val % 16 = 0 then k0_pay3 else prev.1),
   colStep (grid0.coords t) (iblk m c 0 t) (iblk m c 1 t) (if t.val % 256 = 0 then k0_pay4 else prev.2))

/-- What the two output staging buffers hold after the body at point `n`. -/
def outs (c : Dev nD) : (n : ℕ) → n < cfg0.N → Vec F S1x1x512 .f32 × Vec F S1x1x8192 .f32
  | 0, hn => step m c ⟨0, hn⟩ (k0_pay3, k0_pay4)
  | n + 1, hn => step m c ⟨n + 1, hn⟩ (outs c n (Nat.lt_of_succ_lt hn))

/-- The pair the point before `t` left (at the first point: anything, here the splats). -/
def prevOuts (c : Dev nD) (t : Fin cfg0.N) : Vec F S1x1x512 .f32 × Vec F S1x1x8192 .f32 :=
  if t.val = 0 then (k0_pay3, k0_pay4) else outs m c (t.val - 1) (Nat.lt_of_le_of_lt (Nat.sub_le _ _) t.isLt)

theorem outs_eq (c : Dev nD) (t : Fin cfg0.N) : outs m c t.val t.isLt = step m c t (prevOuts m c t) := by
  obtain ⟨n, hn⟩ := t
  cases n with
  | zero => rfl
  | succ n => rfl

theorem prevOuts_of_pos (c : Dev nD) (t : Fin cfg0.N) (ht : t.val ≠ 0) :
    prevOuts m c t = outs m c (t.val - 1) (Nat.lt_of_le_of_lt (Nat.sub_le _ _) t.isLt) := if_neg ht

/-! ## The proof data -/

/-- The arrays as the region finds them; after the body at point `t` each input's buffer at its block and the two
    outputs' buffers at `outs`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outs m c t.val t.isLt).1
    | ⟨3, _⟩ => (outs m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = (outs m c t.val t.isLt).1 := by dsimp only [dats]
theorem after3 (c : Dev nD) (t : Fin cfg0.N) : (dats m 0 c).after 3 t = (outs m c t.val t.isLt).2 := by dsimp only [dats]

/-- Each input's staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-- Inside a sweep the row block's buffer holds what the point before left: it was not written back between. -/
theorem before2_kept (c : Dev nD) (t : Fin cfg0.N) (h0 : ¬t.val % 16 = 0) (d) :
    (dats m 0 c).before 2 t d = (prevOuts m c t).1 := by
  have hN : t.val < 1024 := lt_of_lt_of_eq t.isLt (show cfg0.N = 1024 from N_0)
  rw [Dat.before_out_kept _ 2 rfl t (by omega) (Bool.eq_false_iff.mpr fun h => by have := (flush0_2 _).mp h; dsimp only at this; omega)
    (fun _ => rfl) (fun _ _ => rfl), prevOuts_of_pos m c t (by omega)]
  dsimp only [dats]

/-- Inside a batch the column block's buffer holds what the point before left. -/
theorem before3_kept (c : Dev nD) (t : Fin cfg0.N) (h1 : ¬t.val % 256 = 0) (d) :
    (dats m 0 c).before 3 t d = (prevOuts m c t).2 := by
  have hN : t.val < 1024 := lt_of_lt_of_eq t.isLt (show cfg0.N = 1024 from N_0)
  rw [Dat.before_out_kept _ 3 rfl t (by omega) (Bool.eq_false_iff.mpr fun h => by have := (flush0_3 _).mp h; dsimp only at this; omega)
    (fun _ => rfl) (fun _ _ => rfl), prevOuts_of_pos m c t (by omega)]
  dsimp only [dats]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

set_option maxHeartbeats 1600000 in
/-- The body at any point: the point's number says which of the three cases it is in; an output the case reads before
    storing over it holds what the point before left; so the case's run applies, and what it leaves is `outs`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2, after3, outs_eq m c t]
  unfold step
  have hN : t.val < 1024 := lt_of_lt_of_eq t.isLt (show cfg0.N = 1024 from N_0)
  by_cases h0 : t.val % 16 = 0
  · by_cases h1 : t.val % 256 = 0
    · rw [if_pos h0, if_pos h1]
      iintro ⟨HΦ, Ho, ⟨%d0, H0⟩, ⟨%d1, H1⟩, ⟨%d2, H2⟩, ⟨%d3, H3⟩⟩
      iapply ((runFirst c (grid0.coords t) _ _ _ _ _ _ _ _ ((condRow_iff t).mpr h0) ((condBatch_iff t).mpr h1) (iblk m c 0 t) (iblk m c 1 t) _ _).2.2 Set.univ _)
      isplitl [H0]; · iexact H0
      isplitl [H1]; · iexact H1
      isplitl [H2]; · iexact H2
      isplitl [H3]; · iexact H3
      iintro ⟨H0, H1, ⟨%f2, H2⟩, ⟨%f3, H3⟩⟩
      isplitl [HΦ]; · iexact HΦ
      isplitl [Ho]; · iexact Ho
      isplitl [H0]; · iexact H0
      isplitl [H1]; · iexact H1
      isplitl [H2]
      · unfold owns; iexists _; isplitr; swap; · iexact H2
        ipureintro; exact row_first c _ _ _ _ _ _ _ _ _ _ _ _ _ _ _ _
      unfold owns; iexists _; isplitr; swap; · iexact H3
      ipureintro; exact col_first c _ _ _ _ _ _ _ _ _ _ _ _ _ _ _ _
    · rw [if_pos h0, if_neg h1]
      simp only [before3_kept m c t h1]
      iintro ⟨HΦ, Ho, ⟨%d0, H0⟩, ⟨%d1, H1⟩, ⟨%d2, H2⟩, ⟨%d3, H3⟩⟩
      iapply ((runRowStart c (grid0.coords t) _ _ _ _ _ _ _ _ ((condRow_iff t).mpr h0) (fun h => h1 ((condBatch_iff t).mp h)) (iblk m c 0 t) (iblk m c 1 t) _ _).2.2 Set.univ _)
      isplitl [H0]; · iexact H0
      isplitl [H1]; · iexact H1
      isplitl [H2]; · iexact H2
      isplitl [H3]; · iexact H3
      iintro ⟨H0, H1, H2, H3⟩
      isplitl [HΦ]; · iexact HΦ
      isplitl [Ho]; · iexact Ho
      isplitl [H0]; · iexact H0
      isplitl [H1]; · iexact H1
      isplitl [H2]
      · unfold owns; iexists _; isplitr; swap; · iexact H2
        ipureintro; exact row_rowStart c _ _ _ _ _ _ _ _ _ _ _ _ _ _ _
      unfold owns; iexists _; isplitr; swap; · iexact H3
      ipureintro; exact col_rowStart c _ _ _ _ _ _ _ _ _ _ _ _ _ _ _
  · have h1 : ¬t.val % 256 = 0 := by omega
    rw [if_neg h0, if_neg h1]
    simp only [before2_kept m c t h0, before3_kept m c t h1]
    iintro ⟨HΦ, Ho, ⟨%d0, H0⟩, ⟨%d1, H1⟩, ⟨%d2, H2⟩, ⟨%d3, H3⟩⟩
    iapply ((runInner c (grid0.coords t) _ _ _ _ _ _ _ _ (fun h => h0 ((condRow_iff t).mp h)) (fun h => h1 ((condBatch_iff t).mp h)) (iblk m c 0 t) (iblk m c 1 t) _ _).2.2 Set.univ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]
    · unfold owns; iexists _; isplitr; swap; · iexact H2
      ipureintro; exact row_inner c _ _ _ _ _ _ _ _ _ _ _ _ _ _ _
    unfold owns; iexists _; isplitr; swap; · iexact H3
    ipureintro; exact col_inner c _ _ _ _ _ _ _ _ _ _ _ _ _ _ _

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and in every final state each array of the pipeline is what the
    write-backs of the proof data make it and every other buffer what the host operations after the region leave. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: @main runs and its two argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body

end
-- ==== Proof.BodyKernelIdeal.Cond.lean ====
/-
  The kernel's grid is 4 batches by 16 row tiles by 16 column tiles, visited in that order, so point t has column tile
  t mod 16, row tile (t / 16) mod 16 and batch t / 256.  The body has two conditionals on the coordinates: the first
  holds when the column tile is 0 (a new sweep along a row of tiles begins: the running row minima are reset to +inf),
  the second when both the row tile and the column tile are 0 (a new batch begins: the running column minima are reset).
  Here both conditions are put in closed form over the point's number, and the staging buffers the body is called with
  at a point are named.
-/
import proofs.«144749_j88364657148397_2_alg».proof.Proof.Gen.KernelIdeal.Frame
import proofs.«144749_j88364657148397_2_alg».proof.Proof.Gen.KernelIdeal.Skeleton
import proofs.«144749_j88364657148397_2_alg».proof.Proof.Gen.KernelIdeal.Points

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first conditional's condition: the column-tile coordinate is zero. -/
abbrev condRow (i : grid0.Coords) : Prop := (Scalar.cmpi .ne (Scalar.extui (Scalar.cmpi .eq (BitVec.ofNat 32 (i 2).val) 0#32)) 0#32) = 1#1
/-- It holds exactly at the points whose number is a multiple of 16. -/
theorem condRow_iff : ∀ t : Fin cfg0.N, condRow (grid0.coords t) ↔ t.val % 16 = 0 :=
  (by decide +kernel : ∀ t : Fin grid0.N, condRow (grid0.coords t) ↔ t.val % 16 = 0)

/-- The second conditional's condition: the row-tile and the column-tile coordinates are both zero. -/
abbrev condBatch (i : grid0.Coords) : Prop := (Scalar.cmpi .ne (Scalar.extui (Scalar.andi (Scalar.cmpi .eq (BitVec.ofNat 32 (i 1).val) 0#32) (Scalar.cmpi .eq (BitVec.ofNat 32 (i 2).val) 0#32))) 0#32) = 1#1
/-- It holds exactly at the points whose number is a multiple of 256. -/
theorem condBatch_iff : ∀ t : Fin cfg0.N, condBatch (grid0.coords t) ↔ t.val % 256 = 0 :=
  (by decide +kernel : ∀ t : Fin grid0.N, condBatch (grid0.coords t) ↔ t.val % 256 = 0)

/-- Each window's current staging buffer at point `t`, and that it is a whole buffer. -/
abbrev ms0 (t : Fin cfg0.N) : Memref sig .tc .vmem S1x512x3 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x512x3 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x8192 .f32 := win0_3.stage (cfg0.slots t 3)
abbrev hs3 (t : Fin cfg0.N) : (ms3 t).IsWhole := hstage0_3 ((cfg0.slots t 3).cast nbuf0_3)

end Cert.KernelIdeal.Body

end
-- ==== Proof.BodyKernelIdeal.RunInner.lean ====
/-
  The body at a point inside a sweep (the column tile is not 0): neither conditional is taken.  The body loads the two
  input blocks and the running row minima, stores the updated row minima over the whole row block, loads the 512 running
  column minima of its column tile and stores their update over that slice of the column block.
-/
import proofs.«144749_j88364657148397_2_alg».proof.Proof.BodyKernelIdeal.Cond

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The stores the body makes into the two output buffers in this case, newest first, over the contents the buffers are
    handed with (`xo2` the row-minima block, `xo3` the column-minima block), together with the run itself: from the
    four staging buffers at their contents the body runs without fault to the end, the inputs' buffers unchanged and each
    output's buffer at its incoming contents overwritten by those stores. -/
noncomputable def runInner (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x1x512 .f32) (harg5 : arg5.IsWhole) (arg6 : Memref sig .tc .vmem S1x1x8192 .f32) (harg6 : arg6.IsWhole) (hc0 : ¬condRow i) (hc1 : ¬condBatch i)
    (x0 x1 : Vec F S1x512x3 .f32) (xo2 : Vec F S1x1x512 .f32) (xo3 : Vec F S1x1x8192 .f32) :
    Σ' (L2 : List (View.Piece (Elt F) S1x1x512 .f32)) (L3 : List (View.Piece (Elt F) S1x1x8192 .f32)),
      ∀ (E : Set ℕ) (K : PUnit → sProp 𝕄),
        iprop(owns (c : Thread nD τ) arg3 fullShare x0 ∗ owns (c : Thread nD τ) arg4 fullShare x1
            ∗ owns (c : Thread nD τ) arg5 fullShare xo2 ∗ owns (c : Thread nD τ) arg6 fullShare xo3
            ∗ (iprop(owns (c : Thread nD τ) arg3 fullShare x0 ∗ owns (c : Thread nD τ) arg4 fullShare x1
                ∗ (arg5.view.loc (c : Thread nD τ) ↦[arg5.view.set]{fullShare} arg5.view.writes (Elt F) (harg5.unread xo2) L2)
                ∗ (arg6.view.loc (c : Thread nD τ) ↦[arg6.view.set]{fullShare} arg6.view.writes (Elt F) (harg6.unread xo3) L3)) -∗ K ⟨⟩))
          ⊢ wp frame (wpE (defs₀ (F := F)) Variants.none c none) E (cc0__fused_kernel i arg3 harg3 arg4 harg4 arg5 harg5 arg6 harg6) K := by
  refine ⟨?_, ?_, fun E K => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%f3, %hf3, H3⟩, Hk⟩
    obtain rfl := harg3.eq_unread hf0; obtain rfl := harg4.eq_unread hf1
    obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexact H2
    iexact H3

end Cert.KernelIdeal.Body

end
-- ==== Proof.BodyKernelIdeal.RunRowStart.lean ====
/-
  The body at the first point of a sweep that does not begin a batch (the column tile is 0, the row tile is not): only the
  first conditional is taken.  The row block is first stored whole with +inf, then updated as at an inner point; the column
  block is updated on its first slice as at an inner point.
-/
import proofs.«144749_j88364657148397_2_alg».proof.Proof.BodyKernelIdeal.RunInner

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The stores the body makes into the two output buffers in this case, newest first, over the contents the buffers are
    handed with (`xo2` the row-minima block, `xo3` the column-minima block), together with the run itself: from the
    four staging buffers at their contents the body runs without fault to the end, the inputs' buffers unchanged and each
    output's buffer at its incoming contents overwritten by those stores. -/
noncomputable def runRowStart (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x1x512 .f32) (harg5 : arg5.IsWhole) (arg6 : Memref sig .tc .vmem S1x1x8192 .f32) (harg6 : arg6.IsWhole) (hc0 : condRow i) (hc1 : ¬condBatch i)
    (x0 x1 : Vec F S1x512x3 .f32) (xo2 : Vec F S1x1x512 .f32) (xo3 : Vec F S1x1x8192 .f32) :
    Σ' (L2 : List (View.Piece (Elt F) S1x1x512 .f32)) (L3 : List (View.Piece (Elt F) S1x1x8192 .f32)),
      ∀ (E : Set ℕ) (K : PUnit → sProp 𝕄),
        iprop(owns (c : Thread nD τ) arg3 fullShare x0 ∗ owns (c : Thread nD τ) arg4 fullShare x1
            ∗ owns (c : Thread nD τ) arg5 fullShare xo2 ∗ owns (c : Thread nD τ) arg6 fullShare xo3
            ∗ (iprop(owns (c : Thread nD τ) arg3 fullShare x0 ∗ owns (c : Thread nD τ) arg4 fullShare x1
                ∗ (arg5.view.loc (c : Thread nD τ) ↦[arg5.view.set]{fullShare} arg5.view.writes (Elt F) (harg5.unread xo2) L2)
                ∗ (arg6.view.loc (c : Thread nD τ) ↦[arg6.view.set]{fullShare} arg6.view.writes (Elt F) (harg6.unread xo3) L3)) -∗ K ⟨⟩))
          ⊢ wp frame (wpE (defs₀ (F := F)) Variants.none c none) E (cc0__fused_kernel i arg3 harg3 arg4 harg4 arg5 harg5 arg6 harg6) K := by
  refine ⟨?_, ?_, fun E K => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%f3, %hf3, H3⟩, Hk⟩
    obtain rfl := harg3.eq_unread hf0; obtain rfl := harg4.eq_unread hf1
    obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexact H2
    iexact H3

end Cert.KernelIdeal.Body

end
-- ==== Proof.BodyKernelIdeal.RunFirst.lean ====
/-
  The body at the first point of a batch (the row tile and the column tile are both 0): both conditionals are taken.  The
  row block and the column block are each first stored whole with +inf — after a load of the buffer whose value is not
  used — and then updated as at an inner point.
-/
import proofs.«144749_j88364657148397_2_alg».proof.Proof.BodyKernelIdeal.RunRowStart

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The stores the body makes into the two output buffers in this case, newest first, over the contents the buffers are
    handed with (`xo2` the row-minima block, `xo3` the column-minima block), together with the run itself: from the
    four staging buffers at their contents the body runs without fault to the end, the inputs' buffers unchanged and each
    output's buffer overwritten by those stores (the first of which covers it, so what it held before does not matter). -/
noncomputable def runFirst (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x1x512 .f32) (harg5 : arg5.IsWhole) (arg6 : Memref sig .tc .vmem S1x1x8192 .f32) (harg6 : arg6.IsWhole) (hc0 : condRow i) (hc1 : condBatch i)
    (x0 x1 : Vec F S1x512x3 .f32) (xo2 : Vec F S1x1x512 .f32) (xo3 : Vec F S1x1x8192 .f32) :
    Σ' (L2 : List (View.Piece (Elt F) S1x1x512 .f32)) (L3 : List (View.Piece (Elt F) S1x1x8192 .f32)),
      ∀ (E : Set ℕ) (K : PUnit → sProp 𝕄),
        iprop(owns (c : Thread nD τ) arg3 fullShare x0 ∗ owns (c : Thread nD τ) arg4 fullShare x1
            ∗ owns (c : Thread nD τ) arg5 fullShare xo2 ∗ owns (c : Thread nD τ) arg6 fullShare xo3
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L2)
                ∗ (∃ f, arg6.view.loc (c : Thread nD τ) ↦[arg6.view.set]{fullShare} arg6.view.writes (Elt F) f L3)) -∗ K ⟨⟩))
          ⊢ wp frame (wpE (defs₀ (F := F)) Variants.none c none) E (cc0__fused_kernel i arg3 harg3 arg4 harg4 arg5 harg5 arg6 harg6) K := by
  refine ⟨?_, ?_, fun E K => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%f3, %hf3, H3⟩, Hk⟩
    obtain rfl := harg3.eq_unread hf0; obtain rfl := harg4.eq_unread hf1
    obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; iexact H2
    iexists _; iexact H3

end Cert.KernelIdeal.Body

end
-- ==== Proof.BodyKernelIdeal.Steps.lean ====
/-
  What one grid point does to the two running blocks, in closed form and for any float values.
  The row block (512 running row minima) is stored whole: it becomes the pointwise update of what it held — or of the
  +inf splat, at the first point of a sweep — by the tile's minima along its rows.  The column block (8192 running column
  minima) is stored only on the 512 entries of the point's column tile: there it becomes the update of what it held — or
  of the +inf splat, at the first point of a batch — by the tile's minima along its columns, and elsewhere it keeps what
  it held.  Each of the three cases' store lists, read back, is one of these two functions.
-/
import proofs.«144749_j88364657148397_2_alg».proof.Proof.BodyKernelIdeal.RunFirst
import Idealize.ShloMosaic.Lib.WritesUnit
import Idealize.ShloMosaic.Lib.WholeRead
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole-shape rectangle's offsets, however the zeros are spelt, are zero. -/
theorem zeros3 : (![0, 0, 0] : Fin 3 → ℕ) = fun _ => 0 := by
  funext a; fin_cases a <;> rfl

/-- A store through the whole-shape rectangle, made last, leaves its payload whatever was stored before. -/
theorem read_whole_store {sg : RefSig} {κ : Kind} {sp : Space} {S : Shape} {e : EltTy} {Val : EltTy → Type}
    (v : View sg κ sp S e) (f : v.ty.Contents Val) {off : Fin S.rank → ℕ} (hz : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  funext fun y => View.read_writes_cons_unit_of_mem v f inb w L y y hz fun a => (Nat.zero_add _).symm

/-- A load of a whole buffer held at the contents that read `X` reads `X`. -/
theorem load_whole {κ : Kind} {sp : Space} {S : Shape} {e : EltTy} {Val : EltTy → Type} {mr : Memref sig κ sp S e}
    (h : mr.IsWhole) (X : S.Idx → Val e) {off : Fin S.rank → ℕ} (hz : off = fun _ => 0)
    (inb : ∀ a, off a + S.size a ≤ S.size a) :
    View.readAt Val mr.view (Rect.unit off S.size inb).toLoadRect (h.unread X) = X := by
  rw [View.readAt_eq_ld, h.read_unread, View.ld_unit_zero hz]

/-- The row block after a point: the update of `prev` by the tile of the two input blocks. -/
def rowStep (x0 x1 : Vec F S1x512x3 .f32) (prev : Vec F S1x1x512 .f32) : Vec F S1x1x512 .f32 :=
  k0_pay1 (k0_pay7 x0 x1 prev)

/-- The 512 entries of the column block that the point at coordinates `i` updates. -/
abbrev colRect (i : grid0.Coords) : Rect S1x1x8192 := Rect.unit (k0_off1 i) S1x1x512.size (k0_off1_inb i)

/-- The column block after a point: on the point's slice the update of `prev`'s slice by the tile, elsewhere `prev`. -/
def colStep (i : grid0.Coords) (x0 x1 : Vec F S1x512x3 .f32) (prev : Vec F S1x1x8192 .f32) : Vec F S1x1x8192 .f32 :=
  fun y => if h : ∀ a, k0_off1 i a ≤ (y a).val ∧ (y a).val < k0_off1 i a + S1x1x512.size a then
      k0_pay2 (k0_pay6 x0 x1) (View.ld prev (colRect i)) (Rect.unitLocal (s := S1x1x8192) (off := k0_off1 i) (size := S1x1x512.size) y h)
    else prev y

section Pieces

variable (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x1x512 .f32) (harg5 : arg5.IsWhole) (arg6 : Memref sig .tc .vmem S1x1x8192 .f32) (harg6 : arg6.IsWhole)
  (x0 x1 : Vec F S1x512x3 .f32) (xo2 : Vec F S1x1x512 .f32) (xo3 : Vec F S1x1x8192 .f32)

/-- Inside a sweep the row block is updated from what it held. -/
theorem row_inner (hc0 : ¬condRow i) (hc1 : ¬condBatch i) :
    arg5.view.read (Elt F) (arg5.view.writes (Elt F) (harg5.unread xo2) (runInner c i arg3 harg3 arg4 harg4 arg5 harg5 arg6 harg6 hc0 hc1 x0 x1 xo2 xo3).1)
      = rowStep x0 x1 xo2 := by
  unfold runInner; dsimp only; sl_unfold_words
  refine (read_whole_store _ _ zeros3 _ _ _).trans ?_
  rw [load_whole harg3 x0 zeros3, load_whole harg4 x1 zeros3, load_whole harg5 xo2 zeros3]
  rfl

/-- Inside a sweep the column block is updated on the point's slice from what it held. -/
theorem col_inner (hc0 : ¬condRow i) (hc1 : ¬condBatch i) :
    arg6.view.read (Elt F) (arg6.view.writes (Elt F) (harg6.unread xo3) (runInner c i arg3 harg3 arg4 harg4 arg5 harg5 arg6 harg6 hc0 hc1 x0 x1 xo2 xo3).2.1)
      = colStep i x0 x1 xo3 := by
  unfold runInner; dsimp only
  funext y
  refine (View.read_writes_cons_unit arg6.view _ (k0_off1_inb i) _ [] y (rfl : k0_off1 i = k0_off1 i)).trans ?_
  unfold runInner.sl.r colStep
  rw [load_whole harg3 x0 zeros3, load_whole harg4 x1 zeros3, View.writes_nil, harg6.read_unread, View.readAt_eq_ld, harg6.read_unread]
/-- At the first point of a sweep the row block is updated from the +inf splat, whatever it held. -/
theorem row_rowStart (hc0 : condRow i) (hc1 : ¬condBatch i) :
    arg5.view.read (Elt F) (arg5.view.writes (Elt F) (harg5.unread xo2) (runRowStart c i arg3 harg3 arg4 harg4 arg5 harg5 arg6 harg6 hc0 hc1 x0 x1 xo2 xo3).1)
      = rowStep x0 x1 k0_pay3 := by
  unfold runRowStart; dsimp only; sl_unfold_words
  refine (read_whole_store _ _ zeros3 _ _ _).trans ?_
  rw [load_whole harg3 x0 zeros3, load_whole harg4 x1 zeros3, View.readCov_unit_zero _ zeros3]
  rfl

/-- At the first point of a sweep that does not begin a batch the column block is updated from what it held. -/
theorem col_rowStart (hc0 : condRow i) (hc1 : ¬condBatch i) :
    arg6.view.read (Elt F) (arg6.view.writes (Elt F) (harg6.unread xo3) (runRowStart c i arg3 harg3 arg4 harg4 arg5 harg5 arg6 harg6 hc0 hc1 x0 x1 xo2 xo3).2.1)
      = colStep i x0 x1 xo3 := by
  unfold runRowStart; dsimp only
  funext y
  refine (View.read_writes_cons_unit arg6.view _ (k0_off1_inb i) _ [] y (rfl : k0_off1 i = k0_off1 i)).trans ?_
  unfold runRowStart.sl.r colStep
  rw [load_whole harg3 x0 zeros3, load_whole harg4 x1 zeros3, View.writes_nil, harg6.read_unread, View.readAt_eq_ld, harg6.read_unread]

/-- At the first point of a batch the row block is updated from the +inf splat, whatever the buffer held. -/
theorem row_first (hc0 : condRow i) (hc1 : condBatch i) (f : arg5.view.ty.Contents (Elt F)) :
    arg5.view.read (Elt F) (arg5.view.writes (Elt F) f (runFirst c i arg3 harg3 arg4 harg4 arg5 harg5 arg6 harg6 hc0 hc1 x0 x1 xo2 xo3).1)
      = rowStep x0 x1 k0_pay3 := by
  unfold runFirst; dsimp only; sl_unfold_words
  refine (read_whole_store _ _ zeros3 _ _ _).trans ?_
  rw [load_whole harg3 x0 zeros3, load_whole harg4 x1 zeros3, View.readCov_unit_zero _ zeros3]
  rfl

/-- At the first point of a batch the column block is updated from the +inf splat, whatever the buffer held. -/
theorem col_first (hc0 : condRow i) (hc1 : condBatch i) (f : arg6.view.ty.Contents (Elt F)) :
    arg6.view.read (Elt F) (arg6.view.writes (Elt F) f (runFirst c i arg3 harg3 arg4 harg4 arg5 harg5 arg6 harg6 hc0 hc1 x0 x1 xo2 xo3).2.1)
      = colStep i x0 x1 k0_pay4 := by
  unfold runFirst; dsimp only
  funext y
  refine (View.read_writes_cons_unit arg6.view _ (k0_off1_inb i) _ _ y (rfl : k0_off1 i = k0_off1 i)).trans ?_
  unfold runFirst.sl.r runFirst.sl.v39 runFirst.sl.H3_1 colStep
  rw [load_whole harg3 x0 zeros3, load_whole harg4 x1 zeros3, read_whole_store _ _ zeros3, View.readAt_eq_ld, read_whole_store _ _ zeros3]
end Pieces

end Cert.KernelIdeal.Body

end
-- ==== Proof.BodyKernelIdeal.Frame.lean ====
/-
  The frame of the program: every weakly fair execution of @main terminates without fault and leaves the two argument
  arrays unchanged.  What the two running blocks hold after each grid point is defined by recursion on the point's
  number: the row block restarts from the +inf splat at the first point of a sweep (every 16th point) and the column
  block at the first point of a batch (every 256th), and otherwise each continues from what the point before left — the
  row block is written back only after the last point of its sweep and the column block only after the last point of its
  batch, so between write-backs the staging buffer still holds what the body left.  With these contents as the proof data
  the body obligation holds at every point by the case's run, and the launch theorem for a region followed by host
  operations gives the run and the frame.
-/
import proofs.«144749_j88364657148397_2_alg».proof.Proof.BodyKernelIdeal.Steps

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One point's effect on the pair (row block, column block). -/
def step (c : Dev nD) (t : Fin cfg0.N) (prev : Vec F S1x1x512 .f32 × Vec F S1x1x8192 .f32) :
    Vec F S1x1x512 .f32 × Vec F S1x1x8192 .f32 :=
  (rowStep (iblk m c 0 t) (iblk m c 1 t) (if t.val % 16 = 0 then k0_pay3 else prev.1),
   colStep (grid0.coords t) (iblk m c 0 t) (iblk m c 1 t) (if t.val % 256 = 0 then k0_pay4 else prev.2))

/-- What the two output staging buffers hold after the body at point `n`. -/
def outs (c : Dev nD) : (n : ℕ) → n < cfg0.N → Vec F S1x1x512 .f32 × Vec F S1x1x8192 .f32
  | 0, hn => step m c ⟨0, hn⟩ (k0_pay3, k0_pay4)
  | n + 1, hn => step m c ⟨n + 1, hn⟩ (outs c n (Nat.lt_of_succ_lt hn))

/-- The pair the point before `t` left (at the first point: anything, here the splats). -/
def prevOuts (c : Dev nD) (t : Fin cfg0.N) : Vec F S1x1x512 .f32 × Vec F S1x1x8192 .f32 :=
  if t.val = 0 then (k0_pay3, k0_pay4) else outs m c (t.val - 1) (Nat.lt_of_le_of_lt (Nat.sub_le _ _) t.isLt)

theorem outs_eq (c : Dev nD) (t : Fin cfg0.N) : outs m c t.val t.isLt = step m c t (prevOuts m c t) := by
  obtain ⟨n, hn⟩ := t
  cases n with
  | zero => rfl
  | succ n => rfl

theorem prevOuts_of_pos (c : Dev nD) (t : Fin cfg0.N) (ht : t.val ≠ 0) :
    prevOuts m c t = outs m c (t.val - 1) (Nat.lt_of_le_of_lt (Nat.sub_le _ _) t.isLt) := if_neg ht

/-! ## The proof data -/

/-- The arrays as the region finds them; after the body at point `t` each input's buffer at its block and the two
    outputs' buffers at `outs`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outs m c t.val t.isLt).1
    | ⟨3, _⟩ => (outs m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = (outs m c t.val t.isLt).1 := by dsimp only [dats]
theorem after3 (c : Dev nD) (t : Fin cfg0.N) : (dats m 0 c).after 3 t = (outs m c t.val t.isLt).2 := by dsimp only [dats]

/-- Each input's staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-- Inside a sweep the row block's buffer holds what the point before left: it was not written back between. -/
theorem before2_kept (c : Dev nD) (t : Fin cfg0.N) (h0 : ¬t.val % 16 = 0) (d) :
    (dats m 0 c).before 2 t d = (prevOuts m c t).1 := by
  have hN : t.val < 1024 := lt_of_lt_of_eq t.isLt (show cfg0.N = 1024 from N_0)
  rw [Dat.before_out_kept _ 2 rfl t (by omega) (Bool.eq_false_iff.mpr fun h => by have := (flush0_2 _).mp h; dsimp only at this; omega)
    (fun _ => rfl) (fun _ _ => rfl), prevOuts_of_pos m c t (by omega)]
  dsimp only [dats]

/-- Inside a batch the column block's buffer holds what the point before left. -/
theorem before3_kept (c : Dev nD) (t : Fin cfg0.N) (h1 : ¬t.val % 256 = 0) (d) :
    (dats m 0 c).before 3 t d = (prevOuts m c t).2 := by
  have hN : t.val < 1024 := lt_of_lt_of_eq t.isLt (show cfg0.N = 1024 from N_0)
  rw [Dat.before_out_kept _ 3 rfl t (by omega) (Bool.eq_false_iff.mpr fun h => by have := (flush0_3 _).mp h; dsimp only at this; omega)
    (fun _ => rfl) (fun _ _ => rfl), prevOuts_of_pos m c t (by omega)]
  dsimp only [dats]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

set_option maxHeartbeats 1600000 in
/-- The body at any point: the point's number says which of the three cases it is in; an output the case reads before
    storing over it holds what the point before left; so the case's run applies, and what it leaves is `outs`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2, after3, outs_eq m c t]
  unfold step
  have hN : t.val < 1024 := lt_of_lt_of_eq t.isLt (show cfg0.N = 1024 from N_0)
  by_cases h0 : t.val % 16 = 0
  · by_cases h1 : t.val % 256 = 0
    · rw [if_pos h0, if_pos h1]
      iintro ⟨HΦ, Ho, ⟨%d0, H0⟩, ⟨%d1, H1⟩, ⟨%d2, H2⟩, ⟨%d3, H3⟩⟩
      iapply ((runFirst c (grid0.coords t) _ _ _ _ _ _ _ _ ((condRow_iff t).mpr h0) ((condBatch_iff t).mpr h1) (iblk m c 0 t) (iblk m c 1 t) _ _).2.2 Set.univ _)
      isplitl [H0]; · iexact H0
      isplitl [H1]; · iexact H1
      isplitl [H2]; · iexact H2
      isplitl [H3]; · iexact H3
      iintro ⟨H0, H1, ⟨%f2, H2⟩, ⟨%f3, H3⟩⟩
      isplitl [HΦ]; · iexact HΦ
      isplitl [Ho]; · iexact Ho
      isplitl [H0]; · iexact H0
      isplitl [H1]; · iexact H1
      isplitl [H2]
      · unfold owns; iexists _; isplitr; swap; · iexact H2
        ipureintro; exact row_first c _ _ _ _ _ _ _ _ _ _ _ _ _ _ _ _
      unfold owns; iexists _; isplitr; swap; · iexact H3
      ipureintro; exact col_first c _ _ _ _ _ _ _ _ _ _ _ _ _ _ _ _
    · rw [if_pos h0, if_neg h1]
      simp only [before3_kept m c t h1]
      iintro ⟨HΦ, Ho, ⟨%d0, H0⟩, ⟨%d1, H1⟩, ⟨%d2, H2⟩, ⟨%d3, H3⟩⟩
      iapply ((runRowStart c (grid0.coords t) _ _ _ _ _ _ _ _ ((condRow_iff t).mpr h0) (fun h => h1 ((condBatch_iff t).mp h)) (iblk m c 0 t) (iblk m c 1 t) _ _).2.2 Set.univ _)
      isplitl [H0]; · iexact H0
      isplitl [H1]; · iexact H1
      isplitl [H2]; · iexact H2
      isplitl [H3]; · iexact H3
      iintro ⟨H0, H1, H2, H3⟩
      isplitl [HΦ]; · iexact HΦ
      isplitl [Ho]; · iexact Ho
      isplitl [H0]; · iexact H0
      isplitl [H1]; · iexact H1
      isplitl [H2]
      · unfold owns; iexists _; isplitr; swap; · iexact H2
        ipureintro; exact row_rowStart c _ _ _ _ _ _ _ _ _ _ _ _ _ _ _
      unfold owns; iexists _; isplitr; swap; · iexact H3
      ipureintro; exact col_rowStart c _ _ _ _ _ _ _ _ _ _ _ _ _ _ _
  · have h1 : ¬t.val % 256 = 0 := by omega
    rw [if_neg h0, if_neg h1]
    simp only [before2_kept m c t h0, before3_kept m c t h1]
    iintro ⟨HΦ, Ho, ⟨%d0, H0⟩, ⟨%d1, H1⟩, ⟨%d2, H2⟩, ⟨%d3, H3⟩⟩
    iapply ((runInner c (grid0.coords t) _ _ _ _ _ _ _ _ (fun h => h0 ((condRow_iff t).mp h)) (fun h => h1 ((condBatch_iff t).mp h)) (iblk m c 0 t) (iblk m c 1 t) _ _).2.2 Set.univ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]
    · unfold owns; iexists _; isplitr; swap; · iexact H2
      ipureintro; exact row_inner c _ _ _ _ _ _ _ _ _ _ _ _ _ _ _
    unfold owns; iexists _; isplitr; swap; · iexact H3
    ipureintro; exact col_inner c _ _ _ _ _ _ _ _ _ _ _ _ _ _ _

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and in every final state each array of the pipeline is what the
    write-backs of the proof data make it and every other buffer what the host operations after the region leave. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: @main runs and its two argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body

end
-- ==== Proof.Spec.lean ====
/-
  The Chamfer distance of two clouds of 8192 points in three coordinates, for each of four batches, on the extended
  reals: the squared distance of a pair of points in the expanded form |p|² + |q|² − 2 p·q clamped below at zero,
  the least such distance from each point of one cloud to the other cloud and from each point of the other cloud to
  the first, and the sum of the two means.  Both programs are shown to compute this one function of the two arrays.
-/
import Idealize.ShloMosaic.PureOps.Ideal
import Idealize.ShloMosaic.PureOps.Ideal.Laws
import Idealize.ShloMosaic.Lib.ValueIdx

noncomputable section

namespace Chamfer

open Idealize.ShloMosaic Idealize.ShloMosaic.ValueIdx

/-- An array of four clouds of 8192 points with three coordinates each. -/
abbrev Cloud : Type := (⟨3, ![4, 8192, 3]⟩ : Shape).Idx → EReal

/-- The word 2.0 as both programs print it. -/
def two : EReal := Ideal.ofBits .f32 0x40000000#32
/-- The word 8192.0 as both programs print it. -/
def npts : EReal := Ideal.ofBits .f32 0x46000000#32

/-- The squared length of point `n` of batch `b`. -/
def sq (x : Cloud) (b : Fin 4) (n : Fin 8192) : EReal := ∑ d : Fin 3, x (ix3 b n d) * x (ix3 b n d)

/-- The inner product of point `n` of the first cloud with point `k` of the second, in batch `b`. -/
def cross (x y : Cloud) (b : Fin 4) (n k : Fin 8192) : EReal := ∑ d : Fin 3, x (ix3 b n d) * y (ix3 b k d)

/-- The clamped squared distance between point `n` of the first cloud and point `k` of the second. -/
def dist2 (x y : Cloud) (b : Fin 4) (n k : Fin 8192) : EReal :=
  max ((sq x b n + sq y b k) - two * cross x y b n k) 0

/-- The least squared distance from point `n` of the first cloud to the second cloud. -/
def rowMin (x y : Cloud) (b : Fin 4) (n : Fin 8192) : EReal := Finset.univ.inf fun k : Fin 8192 => dist2 x y b n k

/-- The least squared distance from point `k` of the second cloud to the first cloud. -/
def colMin (x y : Cloud) (b : Fin 4) (k : Fin 8192) : EReal := Finset.univ.inf fun n : Fin 8192 => dist2 x y b n k

/-- The Chamfer distance of batch `b`: the mean of the row minima plus the mean of the column minima. -/
def chamfer (x y : Cloud) (b : Fin 4) : EReal :=
  Ideal.div (∑ n : Fin 8192, rowMin x y b n) npts + Ideal.div (∑ k : Fin 8192, colMin x y b k) npts

/-- The result array: one distance per batch. -/
def result (x y : Cloud) : (⟨1, ![4]⟩ : Shape).Idx → EReal := fun i => chamfer x y (i 0)

/-- The word of positive infinity is the top of the extended reals. -/
theorem ofBits_inf_f32 : Ideal.ofBits .f32 0x7F800000#32 = (⊤ : EReal) := by simp [Ideal.ofBits, Ideal.ieee]

/-- A fold of `min` from the top over a finite set is the infimum over it. -/
theorem fold_min_top {ι : Type*} (s : Finset ι) (f : ι → EReal) : s.fold min ⊤ f = s.inf f := rfl

end Chamfer

end
-- ==== Proof.TileValue.lean ====
/-
  One tile of the pairwise computation, read entry by entry on the extended reals.  From a block of 512 points of the
  first cloud and a block of 512 points of the second, the body forms the 512 x 512 table of clamped squared distances
  |p|² + |q|² − 2 p·q, takes its least entry down each column and along each row, and merges the row minima into a
  running minimum.  Each of those vectors is stated here at one entry, as a function of the entries of the two blocks.
-/
import proofs.«144749_j88364657148397_2_alg».proof.Proof.Gen.KernelIdeal.Skeleton
import proofs.«144749_j88364657148397_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Chamfer.Tile

open Idealize.ShloMosaic Idealize.ShloMosaic.ValueIdx Cert.KernelIdeal Cert.KernelIdeal.Gen

/-! ## The vectors that only change shape, and the two vectors of +∞ -/

/-- A row vector stored as a one-row block keeps its entries. -/
theorem pay1_apply (v32 : FVec Ideal S1x512 .f32) (r : Fin 512) :
    k0_pay1 (F := Ideal) v32 (ix3 (0 : Fin 1) (0 : Fin 1) r) = v32 (ix2 (0 : Fin 1) r) := by
  unfold k0_pay1
  exact shapeCast_ab_1ab_apply v32 _ 0 0 r

/-- The stored slice of column minima merged with a tile's column minima: entry by entry the smaller of the two. -/
theorem pay2_apply (v28 : FVec Ideal S512 .f32) (v39 : Vec Ideal S1x1x512 .f32) (q : Fin 512) :
    k0_pay2 (F := Ideal) v28 v39 (ix3 (0 : Fin 1) (0 : Fin 1) q) = min (v39 (ix3 (0 : Fin 1) (0 : Fin 1) q)) (v28 (ix1 q)) := by
  unfold k0_pay2
  refine (shapeCast_ab_1ab_apply _ _ 0 0 q).trans ?_
  refine (minimumf_apply _ _ _).trans ?_
  exact congrArg₂ min (shapeCast_1ab_ab_apply v39 _ 0 q) (shapeCast_a_1a_apply v28 _ 0 q)

/-- The vector the running row minimum starts from is +∞ everywhere. -/
theorem pay3_apply (j : S1x1x512.Idx) : k0_pay3 (F := Ideal) j = ⊤ :=
  Chamfer.ofBits_inf_f32

/-- The vector the column minima start from is +∞ everywhere. -/
theorem pay4_apply (j : S1x1x8192.Idx) : k0_pay4 (F := Ideal) j = ⊤ :=
  Chamfer.ofBits_inf_f32

/-! ## Layout steps of a column vector -/

section Column
variable {α : Type}

/-- A vector of `a` entries cast to a table of one column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A table of one column spread over `b` columns reads, at `(p, c)`, the column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Column

/-! ## The squared lengths and the inner products of a block's points -/

/-- The index of a 512 x 3 table over point `r` with coordinate `d` put back. -/
theorem lift_lane (h : S512x3.Reduces [1] S512) (r : Fin 512) (d : Fin 3) : h.lift (ix1 r) d = ix2 r d :=
  funext fun c => match c with | ⟨0, _⟩ => Fin.ext rfl | ⟨1, _⟩ => Fin.ext rfl

/-- The sum over the three coordinates of the squares of a 512 x 3 table: at point `r` its squared length. -/
theorem sumsq_apply (x : FVec Ideal S512x3 .f32) (h : S512x3.Reduces [1] S512)
    (hacc : (0x00000000#32 : BitVec 32) = 0x00000000#32) (r : Fin 512) :
    multiReduction (F := Ideal) .add [1] S512 (mulf x x) 0x00000000#32 h (.inl rfl) hacc (ix1 r)
      = ∑ d : Fin 3, x (ix2 r d) * x (ix2 r d) := by
  refine (Ideal.multiReduction_add_single (mulf x x) 0x00000000#32 h (.inl rfl) hacc (ix1 r)).trans ?_
  exact Finset.sum_congr rfl fun d _ => congrArg (fun i => x i * x i) (lift_lane h r d)

/-- The contraction of two 512 x 3 tables over their three coordinates, both read by rows. -/
abbrev rowsDot : DotDims S512x3 S512x3 S512x512 := dot_S512x3_S512x3_S512x512_1_1_0_0_n_n

/-- The left table is read at the row of the result's entry … -/
theorem rowsDot_lhs_row (i : S512x512.Idx) (k : rowsDot.contr.Idx) : (rowsDot.lhsIdx i k 0).val = (i 0).val := by
  unfold DotDims.lhsIdx
  rw [dif_neg (show ¬(0 : Fin S512x3.rank) ∈ rowsDot.lhsBatch by decide),
    dif_pos (show (0 : Fin S512x3.rank) ∈ rowsDot.lhsNonContracting by decide)]
  rfl

/-- … and the right table at the row named by the entry's column. -/
theorem rowsDot_rhs_row (i : S512x512.Idx) (k : rowsDot.contr.Idx) : (rowsDot.rhsIdx i k 0).val = (i 1).val := by
  unfold DotDims.rhsIdx
  rw [dif_neg (show ¬(0 : Fin S512x3.rank) ∈ rowsDot.rhsBatch by decide),
    dif_pos (show (0 : Fin S512x3.rank) ∈ rowsDot.rhsNonContracting by decide)]
  rfl

/-- The product of a 512 x 3 table with the transpose of another, accumulated into zero: at `(r, q)` the inner product
    of row `r` of the first with row `q` of the second. -/
theorem rowsDot_apply (x y : FVec Ideal S512x3 .f32) (r q : Fin 512) :
    matmul (F := Ideal) rowsDot (some .fp32) x y (constant (F := Ideal) S512x512 .f32 0x00000000#32) (ix2 r q)
      = ∑ d : Fin 3, x (ix2 r d) * y (ix2 q d) := by
  refine (Ideal.matmul_constant_zero_apply rowsDot (some .fp32) x y (ix2 r q)).trans ?_
  rw [← Equiv.sum_comp (contrEquiv1 rowsDot 3 rfl rfl).symm]
  refine Finset.sum_congr rfl fun k _ => ?_
  have hk := contrEquiv1_symm_val rowsDot 3 rfl rfl k
  have el : rowsDot.lhsIdx (ix2 r q) ((contrEquiv1 rowsDot 3 rfl rfl).symm k) = ix2 r k := funext fun a => Fin.ext (by
    match a with
    | ⟨0, _⟩ => exact rowsDot_lhs_row _ _
    | ⟨1, _⟩ => exact (rowsDot.lhsIdx_val_of_single rfl _ _).trans hk)
  have er : rowsDot.rhsIdx (ix2 r q) ((contrEquiv1 rowsDot 3 rfl rfl).symm k) = ix2 q k := funext fun a => Fin.ext (by
    match a with
    | ⟨0, _⟩ => exact rowsDot_rhs_row _ _
    | ⟨1, _⟩ => exact (rowsDot.rhsIdx_val_of_single rfl _ _).trans hk)
  rw [el, er]

/-! ## One entry of the tile -/

/-- The tile at `(r, q)`: the squared length of point `r` of the first block plus that of point `q` of the second,
    less twice their inner product, clamped below at zero. -/
theorem tile_apply (v8 v10 : Vec Ideal S1x512x3 .f32) (r q : Fin 512) :
    k0_pay5 (F := Ideal) v8 v10 (ix2 r q)
      = max (((∑ d : Fin 3, v8 (ix3 (0 : Fin 1) r d) * v8 (ix3 (0 : Fin 1) r d))
                + (∑ d : Fin 3, v10 (ix3 (0 : Fin 1) q d) * v10 (ix3 (0 : Fin 1) q d)))
              - Chamfer.two * (∑ d : Fin 3, v8 (ix3 (0 : Fin 1) r d) * v10 (ix3 (0 : Fin 1) q d))) 0 := by
  unfold k0_pay5
  refine (maximumf_apply _ _ _).trans ?_
  refine congrArg₂ max ?_ Ideal.ofBits_zero_f32
  refine (subf_apply _ _ _).trans ?_
  refine congrArg₂ (· - ·) ?_ ?_
  · refine (addf_apply _ _ _).trans ?_
    refine congrArg₂ (· + ·) ?_ ?_
    · refine (broadcastTo_a1_ab_apply _ _ r q).trans ?_
      refine (shapeCast_a_a1_apply _ _ r 0).trans ?_
      refine (sumsq_apply _ _ rfl r).trans ?_
      exact Finset.sum_congr rfl fun d _ =>
        congrArg₂ (· * ·) (shapeCast_1ab_ab_apply v8 _ r d) (shapeCast_1ab_ab_apply v8 _ r d)
    · refine (broadcastTo_1b_ab_apply _ _ r q).trans ?_
      refine (shapeCast_a_1a_apply _ _ 0 q).trans ?_
      refine (sumsq_apply _ _ rfl q).trans ?_
      exact Finset.sum_congr rfl fun d _ =>
        congrArg₂ (· * ·) (shapeCast_1ab_ab_apply v10 _ q d) (shapeCast_1ab_ab_apply v10 _ q d)
  · refine (mulf_apply _ _ _).trans ?_
    refine congrArg₂ (· * ·) rfl ?_
    refine (rowsDot_apply _ _ r q).trans ?_
    exact Finset.sum_congr rfl fun d _ =>
      congrArg₂ (· * ·) (shapeCast_1ab_ab_apply v8 _ r d) (shapeCast_1ab_ab_apply v10 _ q d)

/-! ## The least entry down a column and along a row -/

/-- On the extended reals a minimum taken over ONE axis of a vector is, at each remaining index, the fold of `min` from
    the starting value over that axis's coordinates: the indices that reduce to `j` are `j` with each coordinate of the
    reduced axis put back, one for one. -/
theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The index of a 512 x 512 table over column `q` with row `r` put back. -/
theorem lift_col (h : S512x512.Reduces [0] S512) (q r : Fin 512) : h.lift (ix1 q) r = ix2 r q :=
  funext fun c => match c with | ⟨0, _⟩ => Fin.ext rfl | ⟨1, _⟩ => Fin.ext rfl

/-- The index of a 512 x 512 table over row `r` with column `q` put back. -/
theorem lift_row (h : S512x512.Reduces [1] S512) (r q : Fin 512) : h.lift (ix1 r) q = ix2 r q :=
  funext fun c => match c with | ⟨0, _⟩ => Fin.ext rfl | ⟨1, _⟩ => Fin.ext rfl

/-- The minimum of a 512 x 512 table down its columns, from +∞: at column `q` the least of the entries `(r, q)`. -/
theorem min_axis0_apply (x : FVec Ideal S512x512 .f32) (h : S512x512.Reduces [0] S512)
    (hacc : (0x7F800000#32 : BitVec 32) = 0x7F800000#32) (q : Fin 512) :
    multiReduction (F := Ideal) .minimumf [0] S512 x 0x7F800000#32 h (.inl rfl) hacc (ix1 q)
      = Finset.univ.inf fun r : Fin 512 => x (ix2 r q) := by
  refine (multiReduction_minimumf_single x 0x7F800000#32 h (.inl rfl) hacc (ix1 q)).trans ?_
  refine Eq.trans ?_ (Chamfer.fold_min_top (Finset.univ : Finset (Fin 512)) fun r : Fin 512 => x (ix2 r q))
  exact congrArg₂ (fun (init : EReal) (f : Fin 512 → EReal) => (Finset.univ : Finset (Fin 512)).fold min init f)
    Chamfer.ofBits_inf_f32 (funext fun r => congrArg x (lift_col h q r))

/-- The minimum of a 512 x 512 table along its rows, from +∞: at row `r` the least of the entries `(r, q)`. -/
theorem min_axis1_apply (x : FVec Ideal S512x512 .f32) (h : S512x512.Reduces [1] S512)
    (hacc : (0x7F800000#32 : BitVec 32) = 0x7F800000#32) (r : Fin 512) :
    multiReduction (F := Ideal) .minimumf [1] S512 x 0x7F800000#32 h (.inl rfl) hacc (ix1 r)
      = Finset.univ.inf fun q : Fin 512 => x (ix2 r q) := by
  refine (multiReduction_minimumf_single x 0x7F800000#32 h (.inl rfl) hacc (ix1 r)).trans ?_
  refine Eq.trans ?_ (Chamfer.fold_min_top (Finset.univ : Finset (Fin 512)) fun q : Fin 512 => x (ix2 r q))
  exact congrArg₂ (fun (init : EReal) (f : Fin 512 → EReal) => (Finset.univ : Finset (Fin 512)).fold min init f)
    Chamfer.ofBits_inf_f32 (funext fun q => congrArg x (lift_row h r q))

/-- The tile's column minima: at column `q` the least clamped squared distance over the 512 rows. -/
theorem colmin_apply (v8 v10 : Vec Ideal S1x512x3 .f32) (q : Fin 512) :
    k0_pay6 (F := Ideal) v8 v10 (ix1 q) = Finset.univ.inf fun r : Fin 512 => k0_pay5 (F := Ideal) v8 v10 (ix2 r q) := by
  unfold k0_pay6
  exact min_axis0_apply (k0_pay5 (F := Ideal) v8 v10) _ rfl q

/-- The running row minimum after a tile: at row `r` the smaller of the stored value and the least clamped squared
    distance over the tile's 512 columns. -/
theorem rowmin_apply (v8 v10 : Vec Ideal S1x512x3 .f32) (v29 : Vec Ideal S1x1x512 .f32) (r : Fin 512) :
    k0_pay7 (F := Ideal) v8 v10 v29 (ix2 (0 : Fin 1) r)
      = min (v29 (ix3 (0 : Fin 1) (0 : Fin 1) r)) (Finset.univ.inf fun q : Fin 512 => k0_pay5 (F := Ideal) v8 v10 (ix2 r q)) := by
  unfold k0_pay7
  refine (minimumf_apply _ _ _).trans ?_
  refine congrArg₂ min (shapeCast_1ab_ab_apply v29 _ 0 r) ?_
  refine (shapeCast_a_1a_apply _ _ 0 r).trans ?_
  exact min_axis1_apply (k0_pay5 (F := Ideal) v8 v10) _ rfl r

end Chamfer.Tile

end
-- ==== Proof.LibTileInf.lean ====
/-
  Infima of a function on `Fin N` over initial segments `{n | n < B}`, in a linear order with a top element.

  A minimum taken tile by tile — a running value that starts at the top element and is lowered by the infimum of each
  successive block of `T` consecutive arguments — is the infimum over an initial segment that grows by `T` at a time:
  the segment below `0` is empty, the segment below `B + T` is the segment below `B` together with the block
  `B, B + 1, …, B + T − 1`, and a segment that reaches `N` is everything.
-/
import Mathlib.Data.Finset.Lattice.Fold
import Mathlib.Data.Fintype.Basic
import Mathlib.Order.BoundedOrder.Lattice

namespace TileInf

variable {α : Type*} [LinearOrder α] [OrderTop α] {N : ℕ}

/-- The infimum over an initial segment depends only on which arguments the segment's condition admits: two conditions
    on the position that agree on every position below `N` give the same infimum. -/
theorem inf_congr_val (f : Fin N → α) (p q : ℕ → Prop) [DecidablePred p] [DecidablePred q]
    (hpq : ∀ n : Fin N, p n.val ↔ q n.val) :
    (Finset.univ.filter fun n : Fin N => p n.val).inf f = (Finset.univ.filter fun n : Fin N => q n.val).inf f := by
  rw [Finset.filter_congr fun n _ => hpq n]

/-- The infimum over the empty initial segment is the top element. -/
theorem inf_lt_zero (f : Fin N → α) : (Finset.univ.filter fun n : Fin N => n.val < 0).inf f = ⊤ := by
  have e : (Finset.univ.filter fun n : Fin N => n.val < 0) = ∅ :=
    Finset.filter_eq_empty_iff.2 fun n _ => Nat.not_lt_zero n.val
  rw [e, Finset.inf_empty]

/-- An initial segment that reaches `N` holds every argument: its infimum is the infimum over all of `Fin N`. -/
theorem inf_lt_all (f : Fin N → α) (B : ℕ) (h : N ≤ B) :
    (Finset.univ.filter fun n : Fin N => n.val < B).inf f = Finset.univ.inf f := by
  rw [Finset.filter_true_of_mem fun n _ => Nat.lt_of_lt_of_le n.isLt h]

/-- A position between `B` and `B + T` is `B` plus a position below `T`. -/
theorem val_eq_add_sub {B T : ℕ} (n : Fin N) (hB : ¬ n.val < B) (hT : n.val < B + T) (hN : B + (n.val - B) < N) :
    n = (⟨B + (⟨n.val - B, by omega⟩ : Fin T).val, hN⟩ : Fin N) :=
  Fin.ext (by show n.val = B + (n.val - B); omega)

/-- Growing an initial segment by one block: the infimum below `B + T` is the smaller of the infimum below `B` and the
    infimum over the block of the `T` arguments `B + r`, `r < T`. -/
theorem inf_lt_add (f : Fin N → α) (B T : ℕ) (h : B + T ≤ N) :
    (Finset.univ.filter fun n : Fin N => n.val < B + T).inf f
      = min ((Finset.univ.filter fun n : Fin N => n.val < B).inf f)
          (Finset.univ.inf fun r : Fin T => f ⟨B + r.val, by omega⟩) := by
  apply le_antisymm
  · refine le_min (Finset.le_inf fun n hn => ?_) (Finset.le_inf fun r _ => ?_)
    · have hn' : n.val < B := (Finset.mem_filter.1 hn).2
      exact Finset.inf_le (Finset.mem_filter.2 ⟨Finset.mem_univ n, by omega⟩)
    · have hr : B + r.val < B + T := by omega
      exact Finset.inf_le (Finset.mem_filter.2 ⟨Finset.mem_univ _, hr⟩)
  · refine Finset.le_inf fun n hn => ?_
    have hn' : n.val < B + T := (Finset.mem_filter.1 hn).2
    by_cases hb : n.val < B
    · exact (min_le_left _ _).trans (Finset.inf_le (Finset.mem_filter.2 ⟨Finset.mem_univ n, hb⟩))
    · have hN : B + (n.val - B) < N := by omega
      have e : f n = f ⟨B + (⟨n.val - B, by omega⟩ : Fin T).val, hN⟩ := congrArg f (val_eq_add_sub n hb hn' hN)
      rw [e]
      exact (min_le_right _ _).trans
        (Finset.inf_le (f := fun r : Fin T => f ⟨B + r.val, by omega⟩) (Finset.mem_univ (⟨n.val - B, by omega⟩ : Fin T)))

/-- The same with the block's arguments given by any function `g` that agrees with `f` at `B + r`: the form in which a
    block arrives when it is read through its own coordinates. -/
theorem inf_lt_add_of_eq (f : Fin N → α) (B T : ℕ) (h : B + T ≤ N) (g : Fin T → α)
    (hg : ∀ r : Fin T, g r = f ⟨B + r.val, by omega⟩) :
    (Finset.univ.filter fun n : Fin N => n.val < B + T).inf f
      = min ((Finset.univ.filter fun n : Fin N => n.val < B).inf f) (Finset.univ.inf g) := by
  rw [inf_lt_add f B T h, show g = fun r : Fin T => f ⟨B + r.val, by omega⟩ from funext hg]

end TileInf
-- ==== Proof.Sweep.lean ====
/-
  The sweep over tiles, as mathematics on the extended reals.  Each cloud of 8192 points is cut into 16 blocks of 512
  consecutive points.  For every block of the first cloud the sweep passes over the blocks of the second; at a pair of
  blocks it forms the 512 x 512 table of clamped squared distances between their points, lowers a running vector of
  row minima by the table's least entry along each row, and lowers the matching slice of a running vector of column
  minima by the table's least entry down each column.  Stated here: the table's entries are the distances of the
  specification; what each running vector holds after any number of steps, as an infimum over an initial segment of
  points; and that after the last step the two vectors hold the row minima and the column minima of the specification.
-/
import proofs.«144749_j88364657148397_2_alg».proof.Proof.TileValue
import proofs.«144749_j88364657148397_2_alg».proof.Proof.LibTileInf

noncomputable section

namespace Chamfer.Sweep

open Idealize.ShloMosaic Idealize.ShloMosaic.ValueIdx Cert.KernelIdeal Cert.KernelIdeal.Gen

/-! ## Blocks of points -/

/-- Point `r` of block `I` of a cloud: the point at position `I * 512 + r`. -/
def pt (I : ℕ) (hI : I < 16) (r : Fin 512) : Fin 8192 := ⟨I * 512 + r.val, by omega⟩

/-- Its position. -/
theorem pt_val (I : ℕ) (hI : I < 16) (r : Fin 512) : (pt I hI r).val = I * 512 + r.val := rfl

/-- Block `I` of batch `b` of a cloud: its 512 points from position `I * 512` on, each with its three coordinates. -/
def blk (x : Chamfer.Cloud) (b : Fin 4) (I : ℕ) (hI : I < 16) : Vec Ideal S1x512x3 .f32 :=
  fun z => x (ix3 b (pt I hI (z 1)) (z 2))

/-- A block read at a point and a coordinate. -/
theorem blk_apply (x : Chamfer.Cloud) (b : Fin 4) (I : ℕ) (hI : I < 16) (r : Fin 512) (d : Fin 3) :
    blk x b I hI (ix3 (0 : Fin 1) r d) = x (ix3 b (pt I hI r) d) := rfl

variable (x y : Chamfer.Cloud) (b : Fin 4)

/-! ## One entry of a tile is a distance of the specification -/

/-- The table formed from block `I` of the first cloud and block `J` of the second holds, at `(r, q)`, the clamped
    squared distance between point `r` of the one block and point `q` of the other. -/
theorem tile_dist (I J : ℕ) (hI : I < 16) (hJ : J < 16) (r q : Fin 512) :
    k0_pay5 (F := Ideal) (blk x b I hI) (blk y b J hJ) (ix2 r q) = Chamfer.dist2 x y b (pt I hI r) (pt J hJ q) :=
  Chamfer.Tile.tile_apply (blk x b I hI) (blk y b J hJ) r q

/-! ## The running row minima -/

/-- After `J` blocks of the second cloud have been passed, the running vector holds, for each point `r` of block `I` of
    the first cloud, the least distance from it to the points of the second cloud below position `J * 512`. -/
def RowInv (I : ℕ) (hI : I < 16) (J : ℕ) (v : Vec Ideal S1x1x512 .f32) : Prop :=
  ∀ r : Fin 512, v (ix3 (0 : Fin 1) (0 : Fin 1) r)
    = (Finset.univ.filter fun k : Fin 8192 => k.val < J * 512).inf fun k => Chamfer.dist2 x y b (pt I hI r) k

/-- Before any block: a vector of +∞, the infimum over no point. -/
theorem rowInv_zero (I : ℕ) (hI : I < 16) (v : Vec Ideal S1x1x512 .f32)
    (h : ∀ r : Fin 512, v (ix3 (0 : Fin 1) (0 : Fin 1) r) = ⊤) : RowInv x y b I hI 0 v := by
  intro r
  rw [h r]
  refine Eq.symm ?_
  refine (TileInf.inf_congr_val _ (fun m => m < 0 * 512) (fun m => m < 0) (fun n => by omega)).trans ?_
  exact TileInf.inf_lt_zero _

/-- One more block: lowering each entry by the least entry of the tile's row extends the segment by the block's 512
    points. -/
theorem rowInv_step (I : ℕ) (hI : I < 16) (J : ℕ) (hJ : J < 16) (prev new : Vec Ideal S1x1x512 .f32)
    (hprev : RowInv x y b I hI J prev)
    (hnew : ∀ r : Fin 512, new (ix3 (0 : Fin 1) (0 : Fin 1) r)
      = min (prev (ix3 (0 : Fin 1) (0 : Fin 1) r))
          (Finset.univ.inf fun q : Fin 512 => k0_pay5 (F := Ideal) (blk x b I hI) (blk y b J hJ) (ix2 r q))) :
    RowInv x y b I hI (J + 1) new := by
  intro r
  rw [hnew r, hprev r]
  refine Eq.symm ?_
  refine (TileInf.inf_congr_val _ (fun m => m < (J + 1) * 512) (fun m => m < J * 512 + 512) (fun n => by omega)).trans ?_
  exact TileInf.inf_lt_add_of_eq _ (J * 512) 512 (by omega) _ (fun q => tile_dist x y b I J hI hJ r q)

/-- After all 16 blocks: the row minimum of the specification. -/
theorem rowInv_full (I : ℕ) (hI : I < 16) (v : Vec Ideal S1x1x512 .f32) (h : RowInv x y b I hI 16 v) (r : Fin 512) :
    v (ix3 (0 : Fin 1) (0 : Fin 1) r) = Chamfer.rowMin x y b (pt I hI r) :=
  (h r).trans (TileInf.inf_lt_all _ (16 * 512) (by omega))

/-! ## The running column minima -/

/-- When the sweep stands at block `I` of the first cloud and block `J` of the second, the running vector holds, for each
    point `k` of the second cloud, the least distance to it from the points of the first cloud below position `I * 512`,
    and from those of block `I` as well when `k` lies in a block already passed in this round (`k < J * 512`). -/
def ColInv (I J : ℕ) (v : Vec Ideal S1x1x8192 .f32) : Prop :=
  ∀ k : Fin 8192, v (ix3 (0 : Fin 1) (0 : Fin 1) k)
    = (Finset.univ.filter fun n : Fin 8192 =>
        n.val < (if k.val < J * 512 then (I + 1) * 512 else I * 512)).inf fun n => Chamfer.dist2 x y b n k

/-- At the very start: a vector of +∞. -/
theorem colInv_zero (v : Vec Ideal S1x1x8192 .f32) (h : ∀ k : Fin 8192, v (ix3 (0 : Fin 1) (0 : Fin 1) k) = ⊤) :
    ColInv x y b 0 0 v := by
  intro k
  have e : (if k.val < 0 * 512 then (0 + 1) * 512 else 0 * 512) = 0 := by
    rw [if_neg (by omega)]
  rw [h k, e]
  exact (TileInf.inf_lt_zero _).symm

/-- One tile: inside the slice of block `J` each entry is lowered by the least entry down the tile's column, which adds
    the 512 points of block `I`; outside the slice nothing changes. -/
theorem colInv_step (I J : ℕ) (hI : I < 16) (hJ : J < 16) (prev new : Vec Ideal S1x1x8192 .f32)
    (hprev : ColInv x y b I J prev)
    (hin : ∀ q : Fin 512, new (ix3 (0 : Fin 1) (0 : Fin 1) (pt J hJ q))
      = min (prev (ix3 (0 : Fin 1) (0 : Fin 1) (pt J hJ q)))
          (Finset.univ.inf fun r : Fin 512 => k0_pay5 (F := Ideal) (blk x b I hI) (blk y b J hJ) (ix2 r q)))
    (hout : ∀ k : Fin 8192, ¬(J * 512 ≤ k.val ∧ k.val < J * 512 + 512) →
      new (ix3 (0 : Fin 1) (0 : Fin 1) k) = prev (ix3 (0 : Fin 1) (0 : Fin 1) k)) :
    ColInv x y b I (J + 1) new := by
  intro k
  by_cases hk : J * 512 ≤ k.val ∧ k.val < J * 512 + 512
  · obtain ⟨q, rfl⟩ : ∃ q : Fin 512, k = pt J hJ q :=
      ⟨⟨k.val - J * 512, by omega⟩, Fin.ext (by show k.val = J * 512 + (k.val - J * 512); omega)⟩
    have hv : (pt J hJ q).val = J * 512 + q.val := rfl
    have e1 : (if (pt J hJ q).val < J * 512 then (I + 1) * 512 else I * 512) = I * 512 := if_neg (by omega)
    have e2 : (if (pt J hJ q).val < (J + 1) * 512 then (I + 1) * 512 else I * 512) = I * 512 + 512 := by
      rw [if_pos (by omega)]; omega
    rw [hin q, hprev (pt J hJ q), e1, e2]
    exact (TileInf.inf_lt_add_of_eq _ (I * 512) 512 (by omega) _ (fun r => tile_dist x y b I J hI hJ r q)).symm
  · rw [hout k hk, hprev k, if_congr (show k.val < J * 512 ↔ k.val < (J + 1) * 512 by omega) rfl rfl]

/-- After the last block of the second cloud every point lies in a block already passed, so the same vector stands
    ready for the next block of the first cloud. -/
theorem colInv_wrap (I : ℕ) (v : Vec Ideal S1x1x8192 .f32) (h : ColInv x y b I 16 v) : ColInv x y b (I + 1) 0 v := by
  intro k
  have e1 : (if k.val < 16 * 512 then (I + 1) * 512 else I * 512) = (I + 1) * 512 := if_pos (by omega)
  have e2 : (if k.val < 0 * 512 then (I + 1 + 1) * 512 else (I + 1) * 512) = (I + 1) * 512 := if_neg (by omega)
  rw [h k, e1, e2]

/-- After all 16 blocks of the first cloud: the column minimum of the specification. -/
theorem colInv_full (v : Vec Ideal S1x1x8192 .f32) (h : ColInv x y b 16 0 v) (k : Fin 8192) :
    v (ix3 (0 : Fin 1) (0 : Fin 1) k) = Chamfer.colMin x y b k := by
  have e : (if k.val < 0 * 512 then (16 + 1) * 512 else 16 * 512) = 16 * 512 := if_neg (by omega)
  rw [h k, e]
  exact TileInf.inf_lt_all _ (16 * 512) (by omega)

end Chamfer.Sweep

end
-- ==== Proof.HostTail.lean ====
/-
  What the kernel's program does after its one region: the two arrays of minima the region leaves, of shape 4 × 1 × 8192,
  are each recast to 4 × 8192, summed over the 8192 points from zero, and divided by 8192; the two quotients are added.
  Given that the first array holds the row minima and the second the column minima of the clamped squared distances,
  the result is the Chamfer distance of the two clouds.
-/
import proofs.«144749_j88364657148397_2_alg».proof.Proof.Gen.KernelIdeal.Frame
import proofs.«144749_j88364657148397_2_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

namespace Chamfer.Tail

open Cert.KernelIdeal Cert.KernelIdeal.Gen Idealize.ShloMosaic Idealize.ShloMosaic.ValueIdx Idealize.ShloMosaic.TcCoe
open Idealize.SL.Sem Idealize.ShloMosaic.StableHlo
open Idealize.ShloMosaic.Pipeline (Dat)

/-- A 4 × 1 × 8192 array recast to 4 × 8192 reads, at (b, n), the operand at (b, 0, n): the two indices have the same
    row-major position. -/
theorem recast_apply (r : (⟨S4x1x8192, .f32⟩ : BufTy).Contents (Elt Ideal)) (b : Fin 4) (n : Fin 8192) :
    shapeCast S4x8192 r shapeCasts_S4x1x8192_S4x8192 (ix2 b n) = r (ix3 b (0 : Fin 1) n) :=
  shapeCast_apply r shapeCasts_S4x1x8192_S4x8192 _ _ (by
    rw [Shape.rowMajor_val_three, Shape.rowMajor_val_two]
    show (b.val * 1 + 0) * 8192 + n.val = b.val * 8192 + n.val
    rw [Nat.mul_one, Nat.add_zero])

/-- The sum over the 8192 points of a 4 × 8192 array from the zero word, at batch `b`. -/
theorem sum_rows_apply (y : (⟨S4x8192, .f32⟩ : BufTy).Contents (Elt Ideal)) (b : Fin 4) :
    Host.reduceAdd (F := Ideal) y (constant (F := Ideal) S_ .f32 0x00000000#32) reducesTo_S4x8192_S4_d1 h_S_ (ix1 b)
      = ∑ n : Fin 8192, y (ix2 b n) := by
  simp only [Host.reduceAdd, Ideal.hostReduceAdd_def]
  rw [Ideal.hostReduceAdd_single reducesTo_S4x8192_S4_d1 (by decide)]
  have hz : (constant (F := Ideal) S_ .f32 0x00000000#32) (Shape.Idx.first h_S_) = (0 : EReal) := Ideal.ofBits_zero_f32
  rw [hz, zero_add]
  refine Finset.sum_congr rfl fun k _ => ?_
  exact congrArg y (funext fun a => Fin.ext (by match a with | ⟨0, _⟩ => rfl | ⟨1, _⟩ => rfl))

/-- The word 8192.0 placed at every batch. -/
theorem splat_apply (b : Fin 4) :
    broadcastInDim S4 ![] bcast_S_S4 (constant (F := Ideal) S_ .f32 0x46000000#32) (ix1 b) = Chamfer.npts :=
  broadcastInDim_apply _ bcast_S_S4 (constant (F := Ideal) S_ .f32 0x46000000#32) (ix1 b) (fun a => a.elim0) (fun a => a.elim0)

/-- The mean over the 8192 points of one array of minima as the program forms it: recast, sum from zero, divide by the
    splat of 8192. -/
def mean (r : (⟨S4x1x8192, .f32⟩ : BufTy).Contents (Elt Ideal)) : (⟨S4, .f32⟩ : BufTy).Contents (Elt Ideal) :=
  Host.divf (F := Ideal)
    (Host.reduceAdd (F := Ideal) (shapeCast S4x8192 r shapeCasts_S4x1x8192_S4x8192)
      (constant (F := Ideal) S_ .f32 0x00000000#32) reducesTo_S4x8192_S4_d1 h_S_)
    (broadcastInDim S4 ![] bcast_S_S4 (constant (F := Ideal) S_ .f32 0x46000000#32))

/-- The thirteen operations after the region as one function of the two arrays of minima. -/
def tail (r2 r3 : (⟨S4x1x8192, .f32⟩ : BufTy).Contents (Elt Ideal)) : (⟨S4, .f32⟩ : BufTy).Contents (Elt Ideal) :=
  addf (F := Ideal) (φ := .f32) (mean r2) (mean r3)

/-- The mean at batch `b` of an array that holds `g b n` at (b, 0, n). -/
theorem mean_apply (r : (⟨S4x1x8192, .f32⟩ : BufTy).Contents (Elt Ideal)) (g : Fin 4 → Fin 8192 → EReal)
    (hr : ∀ (b : Fin 4) (n : Fin 8192), r (ix3 b (0 : Fin 1) n) = g b n) (b : Fin 4) :
    mean r (ix1 b) = Ideal.div (∑ n : Fin 8192, g b n) Chamfer.npts := by
  show FloatOps.hostDivf (F := Ideal) (Host.reduceAdd (F := Ideal) (shapeCast S4x8192 r shapeCasts_S4x1x8192_S4x8192)
      (constant (F := Ideal) S_ .f32 0x00000000#32) reducesTo_S4x8192_S4_d1 h_S_ (ix1 b))
    (broadcastInDim S4 ![] bcast_S_S4 (constant (F := Ideal) S_ .f32 0x46000000#32) (ix1 b)) = _
  rw [sum_rows_apply, splat_apply, Ideal.hostDivf_def]
  exact congrArg (fun s => Ideal.div s Chamfer.npts)
    (Finset.sum_congr rfl fun n _ => (recast_apply r b n).trans (hr b n))

/-- With the row minima in the first array and the column minima in the second, the operations after the region give
    the Chamfer distance. -/
theorem tail_eq_result (r2 r3 : (⟨S4x1x8192, .f32⟩ : BufTy).Contents (Elt Ideal)) (x y : Chamfer.Cloud)
    (h2 : ∀ (b : Fin 4) (n : Fin 8192), r2 (ix3 b (0 : Fin 1) n) = Chamfer.rowMin x y b n)
    (h3 : ∀ (b : Fin 4) (k : Fin 8192), r3 (ix3 b (0 : Fin 1) k) = Chamfer.colMin x y b k) :
    tail r2 r3 = Chamfer.result x y := by
  funext i
  obtain ⟨b, rfl⟩ : ∃ b : Fin 4, i = ix1 b := ⟨i 0, eq_ix1 i⟩
  show mean r2 (ix1 b) + mean r3 (ix1 b) = Chamfer.chamfer x y b
  rw [mean_apply r2 _ h2, mean_apply r3 _ h3]
  rfl

/-- The result buffer after the operations that follow the region is that function of the two arrays the region leaves:
    each operation's result is read off in turn, and the contents found at the two arrays' references are the arrays'
    final contents. -/
theorem afterTail_eq (dats : (p : Fin 1) → (c : Dev nD) → Dat τ (Elt Ideal) Unit ℕ (UR sig nD τ) ℕ (cfgs p) c)
    (m : (ℓ : Loc nD τ sig) → Buf (Elt Ideal) ℓ) (c : Dev nD) :
    Pipeline.afterTail₀ cfgs dats 0 (V0 m) [hostOps1] c main_v9
      = tail ((dats 0 c).arrAt 2 cfg0.N) ((dats 0 c).arrAt 3 cfg0.N) := by
  have e2 : Pipeline.withArrays (cfgs 0).spec c (V0 m c) (fun w => (dats 0 c).arrAt w (cfgs 0).N) (Proc.devRef .tc main_v0_0)
      = (dats 0 c).arrAt 2 (cfgs 0).N := Pipeline.withArrays_arr spec0 launch0.win.arr_inj c _ _ 2
  have e3 : Pipeline.withArrays (cfgs 0).spec c (V0 m c) (fun w => (dats 0 c).arrAt w (cfgs 0).N) (Proc.devRef .tc main_v0_1)
      = (dats 0 c).arrAt 3 (cfgs 0).N := Pipeline.withArrays_arr spec0 launch0.win.arr_inj c _ _ 3
  unfold Pipeline.afterTail₀
  show StableHlo.after hostOps1 _ (Proc.devRef .tc main_v9) = _
  after_results
  refine Eq.trans ?_ (congrArg₂ tail e2 e3)
  rfl

/-- The kernel's result buffer holds the Chamfer distance once the region has left the row minima in its first result
    array and the column minima in its second. -/
theorem tail_eq (dats : (p : Fin 1) → (c : Dev nD) → Dat τ (Elt Ideal) Unit ℕ (UR sig nD τ) ℕ (cfgs p) c)
    (m : (ℓ : Loc nD τ sig) → Buf (Elt Ideal) ℓ) (c : Dev nD) (x y : Chamfer.Cloud)
    (h2 : ∀ (b : Fin 4) (n : Fin 8192),
      ((dats 0 c).arrAt 2 cfg0.N : (⟨S4x1x8192, .f32⟩ : BufTy).Contents (Elt Ideal)) (ix3 b (0 : Fin 1) n) = Chamfer.rowMin x y b n)
    (h3 : ∀ (b : Fin 4) (k : Fin 8192),
      ((dats 0 c).arrAt 3 cfg0.N : (⟨S4x1x8192, .f32⟩ : BufTy).Contents (Elt Ideal)) (ix3 b (0 : Fin 1) k) = Chamfer.colMin x y b k) :
    Pipeline.afterTail₀ cfgs dats 0 (V0 m) [hostOps1] c main_v9 = Chamfer.result x y :=
  (afterTail_eq dats m c).trans (tail_eq_result _ _ x y h2 h3)

end Chamfer.Tail

end
-- ==== Proof.KernelValue.lean ====
/-
  What the idealized kernel computes.  The grid's point number t = 256·b + 16·I + J is batch b, row tile I, column tile J.
  There the body holds rows 512·I … of the first cloud and rows 512·J … of the second, and by the sweep's two invariants
  the row block after the point holds, for each of its 512 rows, the least clamped squared distance to the first 512·(J+1)
  points of the second cloud, and the column block holds, for each of the 8192 points of the second cloud, the least
  distance to the first 512·I points of the first cloud — 512·(I+1) for the columns of tiles 0 … J.  The row block is
  written back after J = 15 and the column block after I = J = 15, when they hold the row and column minima themselves;
  these write-backs fill the two result arrays, and the host operations after the region take the two means and add them.
-/
import proofs.«144749_j88364657148397_2_alg».proof.Proof.BodyKernelIdeal.Frame
import proofs.«144749_j88364657148397_2_alg».proof.Proof.Sweep
import proofs.«144749_j88364657148397_2_alg».proof.Proof.HostTail

set_option maxRecDepth 16384

noncomputable section

namespace Chamfer.Run

open Cert.KernelIdeal Cert.KernelIdeal.Gen Cert.KernelIdeal.Body
open Idealize.ShloMosaic Idealize.ShloMosaic.ValueIdx Idealize.ShloMosaic.TcCoe Idealize.SL.Sem
open Idealize.ShloMosaic.Pipeline (Dat)
open Chamfer.Sweep Chamfer.Tile

variable (m : (ℓ : Loc nD τ sig) → Buf (Elt Ideal) ℓ) (ρ : Dev nD → PrngReg) (c : Dev nD)

/-- The two clouds as the region finds them. -/
abbrev X : Chamfer.Cloud := V m c main_arg0
abbrev Y : Chamfer.Cloud := V m c main_arg1

/-! ## The index maps over the grid -/

theorem idx_in0 : ∀ t : Fin cfg0.N, win0_0.index t (0 : Fin 3) = t.val / 256 ∧ win0_0.index t (1 : Fin 3) = t.val / 16 % 16 ∧ win0_0.index t (2 : Fin 3) = 0 :=
  (by decide +kernel : ∀ t : Fin grid0.N, _)
theorem idx_in1 : ∀ t : Fin cfg0.N, win0_1.index t (0 : Fin 3) = t.val / 256 ∧ win0_1.index t (1 : Fin 3) = t.val % 16 ∧ win0_1.index t (2 : Fin 3) = 0 :=
  (by decide +kernel : ∀ t : Fin grid0.N, _)
theorem idx_out2 : ∀ t : Fin cfg0.N, win0_2.index t (0 : Fin 3) = t.val / 256 ∧ win0_2.index t (1 : Fin 3) = 0 ∧ win0_2.index t (2 : Fin 3) = t.val / 16 % 16 :=
  (by decide +kernel : ∀ t : Fin grid0.N, _)
theorem idx_out3 : ∀ t : Fin cfg0.N, win0_3.index t (0 : Fin 3) = t.val / 256 ∧ win0_3.index t (1 : Fin 3) = 0 ∧ win0_3.index t (2 : Fin 3) = 0 :=
  (by decide +kernel : ∀ t : Fin grid0.N, _)
/-- The slice of the column block a point updates starts at 512 times its column tile. -/
theorem off_grid : ∀ t : Fin cfg0.N, k0_off1 (grid0.coords t) (0 : Fin 3) = 0 ∧ k0_off1 (grid0.coords t) (1 : Fin 3) = 0 ∧ k0_off1 (grid0.coords t) (2 : Fin 3) = t.val % 16 * 512 :=
  (by decide +kernel : ∀ t : Fin grid0.N, _)

/-! ## The input blocks at a point -/

theorem iblk0_eq (t : Fin cfg0.N) (b : Fin 4) (I J : ℕ) (hI : I < 16) (hJ : J < 16) (ht : t.val = b.val * 256 + I * 16 + J) :
    (iblk m c 0 t : Vec Ideal S1x512x3 .f32) = blk (X m c) b I hI := by
  obtain ⟨e0, e1, e2⟩ := idx_in0 t
  funext (z : S1x512x3.Idx)
  unfold iblk
  rw [View.read_apply]
  show X m c (((cfg0.win 0).blk t).view.emb z) = X m c (ix3 b (pt I hI (z 1)) (z 2))
  refine congrArg (X m c) ?_
  have h0 : (z 0).val < 1 := (z 0).isLt
  funext a
  apply Fin.ext
  match a with
  | ⟨0, _⟩ => show win0_0.index t (0 : Fin 3) * 1 + 1 * (z 0).val = b.val; rw [e0]; omega
  | ⟨1, _⟩ => show win0_0.index t (1 : Fin 3) * 512 + 1 * (z 1).val = I * 512 + (z 1).val; rw [e1]; omega
  | ⟨2, _⟩ => show win0_0.index t (2 : Fin 3) * 3 + 1 * (z 2).val = (z 2).val; rw [e2]; omega

theorem iblk1_eq (t : Fin cfg0.N) (b : Fin 4) (I J : ℕ) (hI : I < 16) (hJ : J < 16) (ht : t.val = b.val * 256 + I * 16 + J) :
    (iblk m c 1 t : Vec Ideal S1x512x3 .f32) = blk (Y m c) b J hJ := by
  obtain ⟨e0, e1, e2⟩ := idx_in1 t
  funext (z : S1x512x3.Idx)
  unfold iblk
  rw [View.read_apply]
  show Y m c (((cfg0.win 1).blk t).view.emb z) = Y m c (ix3 b (pt J hJ (z 1)) (z 2))
  refine congrArg (Y m c) ?_
  have h0 : (z 0).val < 1 := (z 0).isLt
  funext a
  apply Fin.ext
  match a with
  | ⟨0, _⟩ => show win0_1.index t (0 : Fin 3) * 1 + 1 * (z 0).val = b.val; rw [e0]; omega
  | ⟨1, _⟩ => show win0_1.index t (1 : Fin 3) * 512 + 1 * (z 1).val = J * 512 + (z 1).val; rw [e1]; omega
  | ⟨2, _⟩ => show win0_1.index t (2 : Fin 3) * 3 + 1 * (z 2).val = (z 2).val; rw [e2]; omega

/-! ## One point's two updates, entry by entry -/

theorem rowStep_apply (x0 x1 : Vec Ideal S1x512x3 .f32) (prev : Vec Ideal S1x1x512 .f32) (r : Fin 512) :
    rowStep x0 x1 prev (ix3 (0 : Fin 1) (0 : Fin 1) r)
      = min (prev (ix3 (0 : Fin 1) (0 : Fin 1) r)) (Finset.univ.inf fun q : Fin 512 => k0_pay5 (F := Ideal) x0 x1 (ix2 r q)) := by
  unfold rowStep
  rw [pay1_apply, rowmin_apply]

theorem colStep_in (i : grid0.Coords) (J : ℕ) (hJ : J < 16) (o0 : k0_off1 i (0 : Fin 3) = 0) (o1 : k0_off1 i (1 : Fin 3) = 0) (o2 : k0_off1 i (2 : Fin 3) = J * 512)
    (x0 x1 : Vec Ideal S1x512x3 .f32) (prev : Vec Ideal S1x1x8192 .f32) (q : Fin 512) :
    colStep i x0 x1 prev (ix3 (0 : Fin 1) (0 : Fin 1) (pt J hJ q))
      = min (prev (ix3 (0 : Fin 1) (0 : Fin 1) (pt J hJ q))) (Finset.univ.inf fun r : Fin 512 => k0_pay5 (F := Ideal) x0 x1 (ix2 r q)) := by
  have hmem : ∀ a, k0_off1 i a ≤ ((ix3 (0 : Fin 1) (0 : Fin 1) (pt J hJ q) : S1x1x8192.Idx) a).val
      ∧ ((ix3 (0 : Fin 1) (0 : Fin 1) (pt J hJ q) : S1x1x8192.Idx) a).val < k0_off1 i a + S1x1x512.size a := fun a => by
    match a with
    | ⟨0, _⟩ => show k0_off1 i (0 : Fin 3) ≤ 0 ∧ 0 < k0_off1 i (0 : Fin 3) + 1; omega
    | ⟨1, _⟩ => show k0_off1 i (1 : Fin 3) ≤ 0 ∧ 0 < k0_off1 i (1 : Fin 3) + 1; omega
    | ⟨2, _⟩ => show k0_off1 i (2 : Fin 3) ≤ J * 512 + q.val ∧ J * 512 + q.val < k0_off1 i (2 : Fin 3) + 512; omega
  have hloc : Rect.unitLocal (s := S1x1x8192) (off := k0_off1 i) (size := S1x1x512.size) (ix3 (0 : Fin 1) (0 : Fin 1) (pt J hJ q)) hmem
      = (ix3 (0 : Fin 1) (0 : Fin 1) q : S1x1x512.Idx) := by
    funext a
    apply Fin.ext
    rw [Rect.unitLocal_val]
    match a with
    | ⟨0, _⟩ => show 0 - k0_off1 i (0 : Fin 3) = 0; omega
    | ⟨1, _⟩ => show 0 - k0_off1 i (1 : Fin 3) = 0; omega
    | ⟨2, _⟩ => show J * 512 + q.val - k0_off1 i (2 : Fin 3) = q.val; omega
  have hidx : (colRect i).idx (ix3 (0 : Fin 1) (0 : Fin 1) q : S1x1x512.Idx) = (ix3 (0 : Fin 1) (0 : Fin 1) (pt J hJ q) : S1x1x8192.Idx) := by
    funext a
    apply Fin.ext
    match a with
    | ⟨0, _⟩ => show k0_off1 i (0 : Fin 3) + 1 * 0 = 0; omega
    | ⟨1, _⟩ => show k0_off1 i (1 : Fin 3) + 1 * 0 = 0; omega
    | ⟨2, _⟩ => show k0_off1 i (2 : Fin 3) + 1 * q.val = J * 512 + q.val; omega
  unfold colStep
  rw [dif_pos hmem, hloc, pay2_apply, colmin_apply]
  show min (prev ((colRect i).idx (ix3 (0 : Fin 1) (0 : Fin 1) q : S1x1x512.Idx))) _ = _
  rw [hidx]

theorem colStep_out (i : grid0.Coords) (J : ℕ) (o2 : k0_off1 i (2 : Fin 3) = J * 512)
    (x0 x1 : Vec Ideal S1x512x3 .f32) (prev : Vec Ideal S1x1x8192 .f32) (k : Fin 8192) (hk : ¬(J * 512 ≤ k.val ∧ k.val < J * 512 + 512)) :
    colStep i x0 x1 prev (ix3 (0 : Fin 1) (0 : Fin 1) k) = prev (ix3 (0 : Fin 1) (0 : Fin 1) k) := by
  unfold colStep
  rw [dif_neg]
  intro h
  have h2 : k0_off1 i (2 : Fin 3) ≤ k.val ∧ k.val < k0_off1 i (2 : Fin 3) + 512 := h (2 : Fin 3)
  omega

/-! ## The sweep's invariants along the grid -/

/-- One point carries both invariants one column tile further. -/
theorem step_inv (t : Fin cfg0.N) (b : Fin 4) (I J : ℕ) (hI : I < 16) (hJ : J < 16) (ht : t.val = b.val * 256 + I * 16 + J)
    (prev : Vec Ideal S1x1x512 .f32 × Vec Ideal S1x1x8192 .f32)
    (hrow : J ≠ 0 → RowInv (X m c) (Y m c) b I hI J prev.1)
    (hcol : ¬(I = 0 ∧ J = 0) → ColInv (X m c) (Y m c) b I J prev.2) :
    RowInv (X m c) (Y m c) b I hI (J + 1) (step m c t prev).1 ∧ ColInv (X m c) (Y m c) b I (J + 1) (step m c t prev).2 := by
  obtain ⟨o0, o1, o2⟩ := off_grid t
  have o2' : k0_off1 (grid0.coords t) (2 : Fin 3) = J * 512 := by rw [o2]; congr 1; omega
  unfold step
  dsimp only
  rw [iblk0_eq m c t b I J hI hJ ht, iblk1_eq m c t b I J hI hJ ht]
  constructor
  · by_cases hJ0 : J = 0
    · subst hJ0
      rw [if_pos (by omega)]
      exact rowInv_step _ _ b I hI 0 hJ _ _ (rowInv_zero _ _ b I hI _ fun r => pay3_apply _) fun r => rowStep_apply _ _ _ r
    · rw [if_neg (by omega)]
      exact rowInv_step _ _ b I hI J hJ _ _ (hrow hJ0) fun r => rowStep_apply _ _ _ r
  · by_cases h00 : I = 0 ∧ J = 0
    · obtain ⟨rfl, rfl⟩ := h00
      rw [if_pos (by omega)]
      exact colInv_step _ _ b 0 0 hI hJ _ _ (colInv_zero _ _ b _ fun k => pay4_apply _)
        (fun q => colStep_in _ 0 hJ o0 o1 o2' _ _ _ q) (fun k hk => colStep_out _ 0 o2' _ _ _ k hk)
    · rw [if_neg (by omega)]
      exact colInv_step _ _ b I J hI hJ _ _ (hcol h00)
        (fun q => colStep_in _ J hJ o0 o1 o2' _ _ _ q) (fun k hk => colStep_out _ J o2' _ _ _ k hk)

/-- After point 256·b + 16·I + J the row block has folded in column tiles 0 … J and the column block row tiles 0 … I−1
    everywhere and row tile I on the columns of tiles 0 … J. -/
theorem inv : ∀ (n : ℕ) (hn : n < cfg0.N) (b : Fin 4) (I J : ℕ) (hI : I < 16) (hJ : J < 16), n = b.val * 256 + I * 16 + J →
    RowInv (X m c) (Y m c) b I hI (J + 1) (outs m c n hn).1 ∧ ColInv (X m c) (Y m c) b I (J + 1) (outs m c n hn).2 := by
  intro n
  induction n with
  | zero =>
    intro hn b I J hI hJ h
    exact step_inv m c ⟨0, hn⟩ b I J hI hJ h _ (fun hJ0 => absurd (by omega) hJ0) (fun h00 => absurd ⟨by omega, by omega⟩ h00)
  | succ n ih =>
    intro hn b I J hI hJ h
    refine step_inv m c ⟨n + 1, hn⟩ b I J hI hJ h _ (fun hJ0 => ?_) (fun h00 => ?_)
    · obtain ⟨J', rfl⟩ := Nat.exists_eq_succ_of_ne_zero hJ0
      exact (ih (Nat.lt_of_succ_lt hn) b I J' hI (by omega) (by omega)).1
    · by_cases hJ0 : J = 0
      · subst hJ0
        obtain ⟨I', rfl⟩ := Nat.exists_eq_succ_of_ne_zero (fun hI0 => h00 ⟨hI0, rfl⟩)
        exact colInv_wrap _ _ b I' _ (ih (Nat.lt_of_succ_lt hn) b I' 15 (by omega) (by omega) (by omega)).2
      · obtain ⟨J', rfl⟩ := Nat.exists_eq_succ_of_ne_zero hJ0
        exact (ih (Nat.lt_of_succ_lt hn) b I J' hI (by omega) (by omega)).2

/-! ## The two result arrays after the region -/

/-- The row minima as an array of shape [4, 1, 8192], and the column minima likewise. -/
def rowArr : S4x1x8192.Idx → EReal := fun i => Chamfer.rowMin (X m c) (Y m c) (i 0) (i 2)
def colArr : S4x1x8192.Idx → EReal := fun i => Chamfer.colMin (X m c) (Y m c) (i 0) (i 2)

theorem one_idx (z : S1x1x512.Idx) : z = ix3 (0 : Fin 1) (0 : Fin 1) (z 2) := by
  funext a
  match a with
  | ⟨0, _⟩ => exact Subsingleton.elim (α := Fin 1) _ _
  | ⟨1, _⟩ => exact Subsingleton.elim (α := Fin 1) _ _
  | ⟨2, _⟩ => rfl

theorem one_idx' (z : S1x1x8192.Idx) : z = ix3 (0 : Fin 1) (0 : Fin 1) (z 2) := by
  funext a
  match a with
  | ⟨0, _⟩ => exact Subsingleton.elim (α := Fin 1) _ _
  | ⟨1, _⟩ => exact Subsingleton.elim (α := Fin 1) _ _
  | ⟨2, _⟩ => rfl

/-- What a write-back of the row block writes is that block of the row minima. -/
theorem flushed2_eq (t : Fin cfg0.N) (hf : (cfg0.win 2).flush t = true) :
    (dats m 0 c).flushed 2 t = ((cfg0.win 2).blk t).view.read (Elt Ideal) (rowArr m c) := by
  have hN : t.val < 1024 := lt_of_lt_of_eq t.isLt (show cfg0.N = 1024 from N_0)
  have h15 : t.val % 16 = 15 := (flush0_2 t).mp hf
  obtain ⟨e0, e1, e2⟩ := idx_out2 t
  have hr := (inv m c t.val t.isLt ⟨t.val / 256, by omega⟩ (t.val / 16 % 16) 15 (by omega) (by omega) (by show t.val = t.val / 256 * 256 + t.val / 16 % 16 * 16 + 15; omega)).1
  show (cfg0.win 2).cut (grid0.coords t) ((dats m 0 c).after 2 t) = _
  rw [after2]
  funext (z : S1x1x512.Idx)
  rw [View.read_apply]
  show (outs m c t.val t.isLt).1 z = rowArr m c (((cfg0.win 2).blk t).view.emb z)
  obtain ⟨r, rfl⟩ : ∃ r : Fin 512, z = ix3 (0 : Fin 1) (0 : Fin 1) r := ⟨z 2, one_idx z⟩
  rw [rowInv_full _ _ _ _ _ _ hr r]
  have hb : (((cfg0.win 2).blk t).view.emb (ix3 (0 : Fin 1) (0 : Fin 1) r : S1x1x512.Idx) : S4x1x8192.Idx) 0 = (⟨t.val / 256, by omega⟩ : Fin 4) :=
    Fin.ext (by show win0_2.index t (0 : Fin 3) * 1 + 1 * 0 = t.val / 256; rw [e0]; omega)
  have hk : (((cfg0.win 2).blk t).view.emb (ix3 (0 : Fin 1) (0 : Fin 1) r : S1x1x512.Idx) : S4x1x8192.Idx) 2 = pt (t.val / 16 % 16) (by omega) r :=
    Fin.ext (by show win0_2.index t (2 : Fin 3) * 512 + 1 * r.val = t.val / 16 % 16 * 512 + r.val; rw [e2]; omega)
  unfold rowArr
  rw [hb, hk]

/-- What the write-back of the column block writes is that block of the column minima. -/
theorem flushed3_eq (t : Fin cfg0.N) (hf : (cfg0.win 3).flush t = true) :
    (dats m 0 c).flushed 3 t = ((cfg0.win 3).blk t).view.read (Elt Ideal) (colArr m c) := by
  have hN : t.val < 1024 := lt_of_lt_of_eq t.isLt (show cfg0.N = 1024 from N_0)
  have h255 : t.val % 256 = 255 := (flush0_3 t).mp hf
  obtain ⟨e0, e1, e2⟩ := idx_out3 t
  have hcl := colInv_wrap _ _ _ 15 _ (inv m c t.val t.isLt ⟨t.val / 256, by omega⟩ 15 15 (by omega) (by omega) (by show t.val = t.val / 256 * 256 + 15 * 16 + 15; omega)).2
  show (cfg0.win 3).cut (grid0.coords t) ((dats m 0 c).after 3 t) = _
  rw [after3]
  funext (z : S1x1x8192.Idx)
  rw [View.read_apply]
  show (outs m c t.val t.isLt).2 z = colArr m c (((cfg0.win 3).blk t).view.emb z)
  obtain ⟨k, rfl⟩ : ∃ k : Fin 8192, z = ix3 (0 : Fin 1) (0 : Fin 1) k := ⟨z 2, one_idx' z⟩
  rw [colInv_full _ _ _ _ hcl k]
  have hb : (((cfg0.win 3).blk t).view.emb (ix3 (0 : Fin 1) (0 : Fin 1) k : S1x1x8192.Idx) : S4x1x8192.Idx) 0 = (⟨t.val / 256, by omega⟩ : Fin 4) :=
    Fin.ext (by show win0_3.index t (0 : Fin 3) * 1 + 1 * 0 = t.val / 256; rw [e0]; omega)
  have hk : (((cfg0.win 3).blk t).view.emb (ix3 (0 : Fin 1) (0 : Fin 1) k : S1x1x8192.Idx) : S4x1x8192.Idx) 2 = k :=
    Fin.ext (by show win0_3.index t (2 : Fin 3) * 8192 + 1 * k.val = k.val; rw [e2]; omega)
  unfold colArr
  rw [hb, hk]

/-- The row blocks written back tile the first result array, so it ends at the row minima. -/
theorem final2 : (dats m 0 c).arrAt 2 cfg0.N = rowArr m c :=
  (dats m 0 c).arrAt_eq_of_cover 2 (rowArr m c) (fun t hf => flushed2_eq m c t hf) fun (i : S4x1x8192.Idx) => by
    have h0 : (i 0).val < 4 := (i 0).isLt
    have h1 : (i 1).val < 1 := (i 1).isLt
    have h2 : (i 2).val < 8192 := (i 2).isLt
    have hN : cfg0.N = 1024 := N_0
    let t : Fin cfg0.N := ⟨(i 0).val * 256 + (i 2).val / 512 * 16 + 15, by omega⟩
    obtain ⟨e0, e1, e2⟩ := idx_out2 t
    have tv : t.val = (i 0).val * 256 + (i 2).val / 512 * 16 + 15 := rfl
    refine ⟨t, (flush0_2 t).mpr (by omega), ?_⟩
    show i ∈ ((View.whole main_v0_0).slice (win0_2.rect t)).set
    rw [View.set_slice_whole, Rect.mem_set_unit]
    intro a
    match a with
    | ⟨0, _⟩ => show win0_2.index t (0 : Fin 3) * 1 ≤ (i 0).val ∧ (i 0).val < win0_2.index t (0 : Fin 3) * 1 + 1; rw [e0]; omega
    | ⟨1, _⟩ => show win0_2.index t (1 : Fin 3) * 1 ≤ (i 1).val ∧ (i 1).val < win0_2.index t (1 : Fin 3) * 1 + 1; rw [e1]; omega
    | ⟨2, _⟩ => show win0_2.index t (2 : Fin 3) * 512 ≤ (i 2).val ∧ (i 2).val < win0_2.index t (2 : Fin 3) * 512 + 512; rw [e2]; omega

/-- The column blocks written back, one per batch, tile the second result array, so it ends at the column minima. -/
theorem final3 : (dats m 0 c).arrAt 3 cfg0.N = colArr m c :=
  (dats m 0 c).arrAt_eq_of_cover 3 (colArr m c) (fun t hf => flushed3_eq m c t hf) fun (i : S4x1x8192.Idx) => by
    have h0 : (i 0).val < 4 := (i 0).isLt
    have h1 : (i 1).val < 1 := (i 1).isLt
    have h2 : (i 2).val < 8192 := (i 2).isLt
    have hN : cfg0.N = 1024 := N_0
    let t : Fin cfg0.N := ⟨(i 0).val * 256 + 255, by omega⟩
    obtain ⟨e0, e1, e2⟩ := idx_out3 t
    have tv : t.val = (i 0).val * 256 + 255 := rfl
    refine ⟨t, (flush0_3 t).mpr (by omega), ?_⟩
    show i ∈ ((View.whole main_v0_1).slice (win0_3.rect t)).set
    rw [View.set_slice_whole, Rect.mem_set_unit]
    intro a
    match a with
    | ⟨0, _⟩ => show win0_3.index t (0 : Fin 3) * 1 ≤ (i 0).val ∧ (i 0).val < win0_3.index t (0 : Fin 3) * 1 + 1; rw [e0]; omega
    | ⟨1, _⟩ => show win0_3.index t (1 : Fin 3) * 1 ≤ (i 1).val ∧ (i 1).val < win0_3.index t (1 : Fin 3) * 1 + 1; rw [e1]; omega
    | ⟨2, _⟩ => show win0_3.index t (2 : Fin 3) * 8192 ≤ (i 2).val ∧ (i 2).val < win0_3.index t (2 : Fin 3) * 8192 + 8192; rw [e2]; omega

/-! ## The run, read -/

/-- Every weakly fair execution of the idealized kernel's @main terminates with the result buffer at the Chamfer
    distances of the two argument arrays, and the arguments unchanged. -/
theorem run : θ_run defs (onTc (τ := τ) (main (F := Ideal))) ⟨m, fun _ => 0, ρ⟩ fun r => ∀ c : Dev nD,
      r.2.mem ((c.tc : Thread nD τ).loc main_v9) = Chamfer.result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v9 (Pipeline.mem_restRefs_of main_v9 rfl (by intro w; fin_cases w <;> decide))).trans
        (Chamfer.Tail.tail_eq (dats m) m c (X m c) (Y m c)
          (fun b n => by rw [final2]; rfl) (fun b k => by rw [final3]; rfl)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Chamfer.Run

end
-- ==== Proof.RefIsSpec.lean ====
/-
  The reference's result, read index by index at the exact instance, is the Chamfer distance of the two clouds.

  The reference forms, for every batch b and every pair (n, k) of a point of the first cloud and a point of the
  second, the number |p|² + |q|² − 2 p·q clamped below at zero; takes its least value over k for each n and over n
  for each k, both starting from +∞; sums each family of minima over its 8192 points from zero; divides each sum by
  8192; and adds the two quotients.  Each stage is read here at explicit coordinates, and the two minima, which are
  folds of min from the top element over one axis, are infima over that axis's coordinates.
-/
import proofs.«144749_j88364657148397_2_alg».proof.Proof.Gen.ReferenceIdeal.Read
import proofs.«144749_j88364657148397_2_alg».proof.Proof.Spec

noncomputable section

namespace Chamfer.Ref

open Cert.ReferenceIdeal Cert.ReferenceIdeal.Gen Cert.ReferenceIdeal.Read Idealize.ShloMosaic Idealize.ShloMosaic.ValueIdx

/-- The clamped squared distance: the stage before the two minima, at batch `b`, point `n` of the first cloud and point
    `k` of the second.  The two squared lengths are sums over the three coordinates from a zero initial value, placed
    along the rows and along the columns; the inner product is the contraction over the third axis. -/
theorem dist_apply (x0 x1 : (⟨S4x8192x3, .f32⟩ : BufTy).Contents (Elt Ideal)) (b : Fin 4) (n k : Fin 8192) :
    val_main_v14 (F := Ideal) x0 x1 (ix3 b n k) = Chamfer.dist2 x0 x1 b n k := by
  have e0 : ∀ d : Fin 3, idx_main_v1 (idx_main_v4 (idx_main_v6 (ix3 b n k))) d = ix3 b n d := fun d =>
    funext fun a => Fin.ext (by match a with | ⟨0, _⟩ => rfl | ⟨1, _⟩ => rfl | ⟨2, _⟩ => rfl)
  have e1 : ∀ d : Fin 3, idx_main_v3 (idx_main_v5 (idx_main_v7 (ix3 b n k))) d = ix3 b k d := fun d =>
    funext fun a => Fin.ext (by match a with | ⟨0, _⟩ => rfl | ⟨1, _⟩ => rfl | ⟨2, _⟩ => rfl)
  have el : ∀ d : Fin 3, lidx_main_v9 (ix3 b n k) d = ix3 b n d := fun d =>
    funext fun a => Fin.ext (by match a with | ⟨0, _⟩ => rfl | ⟨1, _⟩ => rfl | ⟨2, _⟩ => rfl)
  have er : ∀ d : Fin 3, ridx_main_v9 (ix3 b n k) d = ix3 b k d := fun d =>
    funext fun a => Fin.ext (by match a with | ⟨0, _⟩ => rfl | ⟨1, _⟩ => rfl | ⟨2, _⟩ => rfl)
  unfold Chamfer.dist2 Chamfer.sq Chamfer.cross Chamfer.two
  rw [val_main_v14_apply, val_main_v12_apply, val_main_v8_apply, val_main_v6_apply, val_main_v4_apply,
    val_main_v1_apply, val_main_v7_apply, val_main_v5_apply, val_main_v3_apply, val_main_v11_apply,
    val_main_v10_apply, val_main_v9_apply, val_main_v13_apply]
  simp only [val_main_v0_apply, val_main_v2_apply, val_main_cst_apply, val_main_cst_0_apply, val_main_cst_1_apply,
    val_main_cst_2_apply, e0, e1, el, er, Ideal.maximumf_def, Ideal.subf_def, Ideal.addf_def, Ideal.mulf_def,
    Ideal.ofBits_def, Ideal.ofBits_zero_f32, zero_add]

/-- The index of the 4 × 8192 × 8192 array obtained from (b, n) by inserting `k` on the last axis is (b, n, k). -/
theorem lift_last (h : S4x8192x8192.Reduces [2] S4x8192) (b : Fin 4) (n : Fin 8192) (k : Fin (S4x8192x8192.size 2)) :
    h.lift (ix2 b n) k = ix3 b n (⟨k.val, k.isLt⟩ : Fin 8192) := by
  funext c; apply Fin.ext
  match c with | ⟨0, _⟩ => rfl | ⟨1, _⟩ => rfl | ⟨2, _⟩ => rfl

/-- The index obtained from (b, k) by inserting `n` on the middle axis is (b, n, k). -/
theorem lift_mid (h : S4x8192x8192.Reduces [1] S4x8192) (b : Fin 4) (k : Fin 8192) (n : Fin (S4x8192x8192.size 1)) :
    h.lift (ix2 b k) n = ix3 b (⟨n.val, n.isLt⟩ : Fin 8192) k := by
  funext c; apply Fin.ext
  match c with | ⟨0, _⟩ => rfl | ⟨1, _⟩ => rfl | ⟨2, _⟩ => rfl

/-- The word of +∞ as the initial value of a minimum is the top element. -/
theorem init_row : val_main_cst_3 (F := Ideal) (Shape.Idx.first h_S_) = (⊤ : EReal) := Chamfer.ofBits_inf_f32
theorem init_col : val_main_cst_6 (F := Ideal) (Shape.Idx.first h_S_) = (⊤ : EReal) := Chamfer.ofBits_inf_f32

/-- The minimum over the last axis from +∞: the least clamped squared distance from point `n` of the first cloud to the
    second cloud. -/
theorem rowMin_apply (x0 x1 : (⟨S4x8192x3, .f32⟩ : BufTy).Contents (Elt Ideal)) (b : Fin 4) (n : Fin 8192) :
    val_main_v15 (F := Ideal) x0 x1 (ix2 b n) = Chamfer.rowMin x0 x1 b n := by
  have h : S4x8192x8192.Reduces [2] S4x8192 := by decide
  unfold val_main_v15
  rw [Host.reduce_eq_fold_single FloatOps.minimumf _ _ reducesTo_S4x8192x8192_S4x8192_d2 h h_S_, init_row]
  have hf : (val_main_v14 (F := Ideal) x0 x1 ∘ h.lift (ix2 b n)) = fun k : Fin 8192 => Chamfer.dist2 x0 x1 b n k :=
    funext fun k => (congrArg (val_main_v14 (F := Ideal) x0 x1) (lift_last h b n k)).trans (dist_apply x0 x1 b n k)
  rw [hf]
  exact Chamfer.fold_min_top _ _

/-- The minimum over the middle axis from +∞: the least clamped squared distance from point `k` of the second cloud to
    the first cloud. -/
theorem colMin_apply (x0 x1 : (⟨S4x8192x3, .f32⟩ : BufTy).Contents (Elt Ideal)) (b : Fin 4) (k : Fin 8192) :
    val_main_v19 (F := Ideal) x0 x1 (ix2 b k) = Chamfer.colMin x0 x1 b k := by
  have h : S4x8192x8192.Reduces [1] S4x8192 := by decide
  unfold val_main_v19
  rw [Host.reduce_eq_fold_single FloatOps.minimumf _ _ reducesTo_S4x8192x8192_S4x8192_d1 h h_S_, init_col]
  have hf : (val_main_v14 (F := Ideal) x0 x1 ∘ h.lift (ix2 b k)) = fun n : Fin 8192 => Chamfer.dist2 x0 x1 b n k :=
    funext fun n => (congrArg (val_main_v14 (F := Ideal) x0 x1) (lift_mid h b k n)).trans (dist_apply x0 x1 b n k)
  rw [hf]
  exact Chamfer.fold_min_top _ _

/-- The sum of the row minima of batch `b` from a zero initial value. -/
theorem rowSum_apply (x0 x1 : (⟨S4x8192x3, .f32⟩ : BufTy).Contents (Elt Ideal)) (b : Fin 4) :
    val_main_v16 (F := Ideal) x0 x1 (ix1 b) = ∑ n : Fin 8192, Chamfer.rowMin x0 x1 b n := by
  have e : ∀ n : Fin 8192, idx_main_v16 (ix1 b) n = ix2 b n := fun n =>
    funext fun a => Fin.ext (by match a with | ⟨0, _⟩ => rfl | ⟨1, _⟩ => rfl)
  rw [val_main_v16_apply]
  simp only [e, rowMin_apply, val_main_cst_4_apply, Ideal.ofBits_def, Ideal.ofBits_zero_f32, zero_add]

/-- The sum of the column minima of batch `b` from a zero initial value. -/
theorem colSum_apply (x0 x1 : (⟨S4x8192x3, .f32⟩ : BufTy).Contents (Elt Ideal)) (b : Fin 4) :
    val_main_v20 (F := Ideal) x0 x1 (ix1 b) = ∑ k : Fin 8192, Chamfer.colMin x0 x1 b k := by
  have e : ∀ k : Fin 8192, idx_main_v20 (ix1 b) k = ix2 b k := fun k =>
    funext fun a => Fin.ext (by match a with | ⟨0, _⟩ => rfl | ⟨1, _⟩ => rfl)
  rw [val_main_v20_apply]
  simp only [e, colMin_apply, val_main_cst_7_apply, Ideal.ofBits_def, Ideal.ofBits_zero_f32, zero_add]

/-- The reference's result is the Chamfer distance: the mean of the row minima plus the mean of the column minima, for
    each batch. -/
theorem result_eq (x0 x1 : (⟨S4x8192x3, .f32⟩ : BufTy).Contents (Elt Ideal)) :
    val_main_v23 (F := Ideal) x0 x1 = Chamfer.result x0 x1 := by
  funext i
  obtain ⟨b, rfl⟩ : ∃ b : Fin 4, i = ix1 b := ⟨i 0, eq_ix1 i⟩
  rw [val_main_v23_apply, val_main_v18_apply, val_main_v22_apply, val_main_v17_apply, val_main_v21_apply,
    rowSum_apply, colSum_apply]
  rfl

end Chamfer.Ref

end
-- ==== Proof.lean ====
/-
  The Chamfer distance of two point clouds pc1, pc2 : f32[4, 8192, 3], computed by a kernel that never forms the
  8192 × 8192 table of squared distances, against the plain formula.

  The kernel visits, for each of the 4 batches, the 16 × 16 tiles of 512 × 512 pairs of points.  On a tile it forms the
  clamped squared distances max(|p|² + |q|² − 2 p·q, 0) — the inner products by a matrix product of the two [512, 3]
  blocks — and folds the tile's minima along its rows into 512 running row minima (reset to +inf at the first tile of a
  row of tiles) and its minima along its columns into the tile's slice of 8192 running column minima (reset to +inf at the
  first tile of the batch).  The row minima are written back after the last tile of each row of tiles and the column minima
  after the last tile of the batch; the host then takes the mean of each and adds the two.  The reference forms the whole
  table per batch, takes its minima along both axes, their means, and the sum.

  Read at the exact instance — floats as extended reals, every operation the textbook one — the two programs compute the
  same function of the two arrays (Spec.lean): term by term they apply the same operations to the same words in the same
  order (the words 2.0, 8192.0, 0 and +inf are shared), and the only difference, that the kernel takes each minimum tile
  by tile, is the associativity and commutativity of min on the extended reals with +inf as its unit (LibTileInf.lean,
  Sweep.lean); no finiteness of the inputs is used.

  The parts.  RefIsSpec.lean: the reference's result is the specification, stage by stage of its host operations.
  TileValue.lean: what one tile's arithmetic is, entry by entry.  BodyKernelIdeal/ and BodyKernel/: the kernel body run
  in each of its three control cases on any float values, what each case leaves in the two running blocks in closed form,
  and from that the frame of the idealized and of the word-level program — the body is the same text, so the two
  directories differ only in the program they speak of.  KernelValue.lean: along the grid the running blocks satisfy the
  sweep's invariants, so the written-back blocks are the row and column minima and tile the two result arrays.
  HostTail.lean: the host operations after the region turn those two arrays into the specification's result.
  The idealization rewrote nothing, so its conjunct is trivial.
-/
import proofs.«144749_j88364657148397_2_alg».proof.Defs
import proofs.«144749_j88364657148397_2_alg».proof.Proof.Gen.Kernel
import proofs.«144749_j88364657148397_2_alg».proof.Proof.Gen.KernelIdeal
import proofs.«144749_j88364657148397_2_alg».proof.Proof.Gen.ReferenceIdeal
import proofs.«144749_j88364657148397_2_alg».proof.Proof.Gen.Pre_finite_inputs
import proofs.«144749_j88364657148397_2_alg».proof.Proof.Gen.ReferenceIdeal.Run
import proofs.«144749_j88364657148397_2_alg».proof.Proof.BodyKernel.Frame
import proofs.«144749_j88364657148397_2_alg».proof.Proof.BodyKernelIdeal.Frame
import proofs.«144749_j88364657148397_2_alg».proof.Proof.KernelValue
import proofs.«144749_j88364657148397_2_alg».proof.Proof.RefIsSpec
import Idealize.ShloMosaic.Adequacy
import Idealize.ShloMosaic.Init

noncomputable section

namespace Cert.Proof.ChamferClaims

open Idealize.ShloMosaic Idealize.SL.Sem

/-- The word-level kernel runs and leaves its arguments unchanged. -/
theorem frame_k : Cert.frame_Kernel := fun m ρ _ => Cert.Kernel.Body.frame m ρ

/-- So does the idealized kernel. -/
theorem frame_ki : Cert.frame_KernelIdeal := fun m ρ _ => Cert.KernelIdeal.Body.frame m ρ

/-- The reference is host operations only: its run, with the result dropped, is its frame. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- At the exact instance, from memories that agree on the two arguments, the kernel's result buffer ends at the Chamfer
    distances of the arguments (KernelValue.lean) and so does the reference's (its run, read stage by stage: RefIsSpec.lean). -/
theorem algebraic : Cert.algebraic_KernelIdeal_ReferenceIdeal := by
  intro m ρ m' ρ' _ hagree
  refine ⟨fun c => Chamfer.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), Chamfer.Run.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v23_eq _ _).trans (Chamfer.Ref.result_eq _ _)

end Cert.Proof.ChamferClaims

namespace Cert.Proof

open Cert.Proof.ChamferClaims

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
